-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x1024 : Shape := ⟨2, ![2048, 1024]⟩
abbrev S1024x1024 : Shape := ⟨2, ![1024, 1024]⟩
abbrev S3072x1024 : Shape := ⟨2, ![3072, 1024]⟩
abbrev S2048x3072 : Shape := ⟨2, ![2048, 3072]⟩
abbrev S256x1024 : Shape := ⟨2, ![256, 1024]⟩
abbrev S256x3072 : Shape := ⟨2, ![256, 3072]⟩
abbrev S1024x3072 : Shape := ⟨2, ![1024, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3072x1024, .f32⟩
  | .hbm, ⟨6, _⟩ => ⟨S3072x1024, .bf16⟩
  | .hbm, ⟨7, _⟩ => ⟨S1024x1024, .bf16⟩
  | .hbm, ⟨8, _⟩ => ⟨S2048x3072, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S256x3072, .f32⟩
  | .local _ .vmem, ⟨4, _⟩ => ⟨S256x3072, .f32⟩
  | .local _ .vmem, ⟨5, _⟩ => ⟨S512x128, .f32⟩
  | .local _ .vmem, ⟨6, _⟩ => ⟨S512x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  transposes_S3072x1024_p1_0_S1024x3072 : S3072x1024.Transposes [1, 0] S1024x3072
  inb_S256x3072_S256x3072_0_0 : ∀ a, (![0, 0] : Fin 2 → Nat) a + S256x3072.size a ≤ S256x3072.size a
  h_S256x3072 : 0 < S256x3072.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  dot_S256x1024_S1024x3072_S256x3072_1_0_0_1_n_n_wf : DotDims.WF S256x1024 S1024x3072 S256x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S2048x3072.size a
  hwx0_2 : ∀ i : grid0.Coords, EltTy.bits .f32 = 32 ∨ (Rect.block (s := S2048x3072) S256x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S2048x3072.size a
  hwx1_0 : ∀ i : grid1.Coords, EltTy.bits .f32 = 32 ∨ (Rect.block (s := S2048x3072) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x3072.size a
  hwx1_1 : ∀ i : grid1.Coords, EltTy.bits .f32 = 32 ∨ (Rect.block (s := S2048x3072) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S2048x3072.size a
  hwx1_2 : ∀ i : grid1.Coords, EltTy.bits .f32 = 32 ∨ (Rect.block (s := S2048x3072) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S2048x1024.size a
  hwx1_3 : ∀ i : grid1.Coords, EltTy.bits .f32 = 32 ∨ (Rect.block (s := S2048x1024) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .f32 = 32 ∨ (Rect.block (s := S2048x1024) S512x1024.size (cc2_transform_2 i) (hinb2_2 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x16x64, .f32⟩
  | .hbm, ⟨8, _⟩ => ⟨S16x2048x64, .f32⟩
  | .hbm, ⟨9, _⟩ => ⟨S1024x1024, .f32⟩
  | .hbm, ⟨10, _⟩ => ⟨S2048x1024, .f32⟩
  | .hbm, ⟨11, _⟩ => ⟨S2048x16x64, .f32⟩
  | .hbm, ⟨12, _⟩ => ⟨S16x2048x64, .f32⟩
  | .hbm, ⟨13, _⟩ => ⟨S1024x1024, .f32⟩
  | .hbm, ⟨14, _⟩ => ⟨S2048x1024, .f32⟩
  | .hbm, ⟨15, _⟩ => ⟨S2048x16x64, .f32⟩
  | .hbm, ⟨16, _⟩ => ⟨S16x2048x64, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x64, .f32⟩
  | .hbm, ⟨36, _⟩ => ⟨S2048x16x64, .f32⟩
  | .hbm, ⟨37, _⟩ => ⟨S2048x1024, .f32⟩
  | .hbm, ⟨38, _⟩ => ⟨S1024x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  transposes_S1024x1024_S1024x1024_1_0 : S1024x1024.Transposes [1, 0] S1024x1024
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Bits.Region0.lean ====
import proofs.«108809_j59742995087482_2_alg».proof.Proof.Gen.Kernel.Launch
import proofs.«108809_j59742995087482_2_alg».proof.Proof.Gen.Kernel.Skeleton
import proofs.«108809_j59742995087482_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 0 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out0_2`), runs the body once on symbolic buffers, and packs
the result as the per-point obligation the pipeline rule asks for.  Everything is stated at a parameter `V`: the
contents of the core's buffers when the call is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there:
    a point that does not fetch it has the same block index as the last one that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there:
    a point that does not fetch it has the same block index as the last one that did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through a buffer's whole rectangle -/
abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S256x3072 := Rect.unit (s := S256x3072) ![0, 0] S256x3072.size inb_S256x3072_S256x3072_0_0

/-- The output window's staging buffer after the body, from the input windows' blocks: its one store, of the
    body's arithmetic (`k0_pay1`) applied to the loaded blocks. -/
def out0_2 (x0 : Vec F S256x1024 .f32) (x1 : Vec F S3072x1024 .bf16) : Vec F S256x3072 .f32 :=
  View.canon [⟨r0_2, k0_pay1 (View.ld x0 r0_0) (View.ld x1 r0_1)⟩]

/-- The store fills the buffer. -/
theorem cover0_2 (p0 : Vec F S256x3072 .f32) (y : S256x3072.Idx) :
    ∃ pc ∈ ([⟨r0_2, p0⟩] : List (View.Piece (Elt F) S256x3072 .f32)), y ∈ pc.1.set :=
  View.cover_of_tiled [⟨r0_2, p0⟩] S256x3072.size (by rfl) y

/-! ## The body's run -/

set_option maxHeartbeats 1000000 in
/-- The body on whole staging memrefs — the inputs' at contents `x·`, the output's at anything — runs to a state
    holding the inputs' as they were and the output's at `out0_2` of them. -/
theorem sound_kernel0 (c : Dev nD) (E : Set ℕ) (i : grid0.Coords) (a0 : Memref sig .tc .vmem S256x1024 .f32) (ha0 : a0.IsWhole) (a1 : Memref sig .tc .vmem S3072x1024 .bf16) (ha1 : a1.IsWhole) (a2 : Memref sig .tc .vmem S256x3072 .f32) (ha2 : a2.IsWhole)
    (x0 : Vec F S256x1024 .f32) (x1 : Vec F S3072x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Per core: the arrays as the call finds them; after the body at point `t` each input's buffer still at its
    block and the output's at `out0_2` of the input blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
import proofs.«108809_j59742995087482_2_alg».proof.Proof.Gen.Kernel.Launch
import proofs.«108809_j59742995087482_2_alg».proof.Proof.Gen.Kernel.Skeleton
import proofs.«108809_j59742995087482_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out1_3`), runs the body once on symbolic buffers, and packs
the result as the per-point obligation the pipeline rule asks for.  Everything is stated at a parameter `V`: the
contents of the core's buffers when the call is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there:
    a point that does not fetch it has the same block index as the last one that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there:
    a point that does not fetch it has the same block index as the last one that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there:
    a point that does not fetch it has the same block index as the last one that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through a buffer's whole rectangle -/
abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output window's staging buffer after the body, from the input windows' blocks: its one store, of the
    body's arithmetic (`k1_pay1`) applied to the loaded blocks. -/
def out1_3 (x0 : Vec F S512x128 .f32) (x1 : Vec F S2048x128 .f32) (x2 : Vec F S2048x128 .f32) : Vec F S512x128 .f32 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1)) (k1_pay8 (View.ld x0 r1_0) (View.ld x1 r1_1))⟩]

/-- The store fills the buffer. -/
theorem cover1_3 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-! ## The body's run -/

set_option maxHeartbeats 1000000 in
/-- The body on whole staging memrefs — the inputs' at contents `x·`, the output's at anything — runs to a state
    holding the inputs' as they were and the output's at `out1_3` of them. -/
theorem sound_kernel1 (c : Dev nD) (E : Set ℕ) (i : grid1.Coords) (a0 : Memref sig .tc .vmem S512x128 .f32) (ha0 : a0.IsWhole) (a1 : Memref sig .tc .vmem S2048x128 .f32) (ha1 : a1.IsWhole) (a2 : Memref sig .tc .vmem S2048x128 .f32) (ha2 : a2.IsWhole) (a3 : Memref sig .tc .vmem S512x128 .f32) (ha3 : a3.IsWhole)
    (x0 : Vec F S512x128 .f32) (x1 : Vec F S2048x128 .f32) (x2 : Vec F S2048x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel; simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Per core: the arrays as the call finds them; after the body at point `t` each input's buffer still at its
    block and the output's at `out1_3` of the input blocks; nothing owed; the three input windows read one array, each holding a share of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region2.lean ====
import proofs.«108809_j59742995087482_2_alg».proof.Proof.Gen.Kernel.Launch
import proofs.«108809_j59742995087482_2_alg».proof.Proof.Gen.Kernel.Skeleton
import proofs.«108809_j59742995087482_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out2_2`), runs the body once on symbolic buffers, and packs
the result as the per-point obligation the pipeline rule asks for.  Everything is stated at a parameter `V`: the
contents of the core's buffers when the call is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there:
    a point that does not fetch it has the same block index as the last one that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there:
    a point that does not fetch it has the same block index as the last one that did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through a buffer's whole rectangle -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the input windows' blocks: its one store, of the
    body's arithmetic (`k2_pay1`) applied to the loaded blocks. -/
def out2_2 (x0 : Vec F S512x1024 .f32) (x1 : Vec F S1024x1024 .bf16) : Vec F S512x1024 .f32 :=
  View.canon [⟨r2_2, k2_pay1 (View.ld x0 r2_0) (View.ld x1 r2_1)⟩]

/-- The store fills the buffer. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's run -/

set_option maxHeartbeats 1000000 in
/-- The body on whole staging memrefs — the inputs' at contents `x·`, the output's at anything — runs to a state
    holding the inputs' as they were and the output's at `out2_2` of them. -/
theorem sound_kernel2 (c : Dev nD) (E : Set ℕ) (i : grid2.Coords) (a0 : Memref sig .tc .vmem S512x1024 .f32) (ha0 : a0.IsWhole) (a1 : Memref sig .tc .vmem S1024x1024 .bf16) (ha1 : a1.IsWhole) (a2 : Memref sig .tc .vmem S512x1024 .f32) (ha2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Per core: the arrays as the call finds them; after the body at point `t` each input's buffer still at its
    block and the output's at `out2_2` of the input blocks; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation at a grid point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Chain.lean ====
import proofs.«108809_j59742995087482_2_alg».proof.Proof.Bits.Region0
import proofs.«108809_j59742995087482_2_alg».proof.Proof.Bits.Region1
import proofs.«108809_j59742995087482_2_alg».proof.Proof.Bits.Region2
import proofs.«108809_j59742995087482_2_alg».proof.Proof.Gen.Kernel.Regions

/-!
# The buffers' contents between the three calls

The program is: three host operations (stack the three projection weights and round them and the output weight to
bf16 — the identity at the ideal instance), then three pallas calls in a row, each reading what the one before it
wrote: the fused projection writes the `[2048, 3072]` array of queries, keys and values, the attention call reads that
array through three windows and writes the `[2048, 1024]` array of attended values, the last projection reads it and
writes the result.  This file names the contents of every unscoped buffer at each of the four boundaries — after the
host operations and after each call — as a fold from the launch memory, and the proof data of each call at the
contents it is entered from.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- After the host operations (what the first call is entered from), read at the TensorCore's references. -/
abbrev E1 : (c : Dev nD) → (b : Ref sig .tc) → Buf (Elt F) ((c : Thread nD τ).loc b) := fun c b => Gen.V1 m c b

/-- After the first call: the array of queries, keys and values at what its write-backs leave, all else unchanged. -/
def W2 (c : Dev nD) : Valuation τ sig (Elt F) :=
  Function.update (Gen.V1 m c) main_v3 ((dat0 (E1 m) c).arrAt 2 cfg0.N : Buf (Elt F) ((c : Thread nD τ).loc main_v3))
abbrev E2 : (c : Dev nD) → (b : Ref sig .tc) → Buf (Elt F) ((c : Thread nD τ).loc b) := fun c b => W2 m c b

/-- After the attention call: the array of attended values at what its write-backs leave. -/
def W3 (c : Dev nD) : Valuation τ sig (Elt F) :=
  Function.update (W2 m c) main_v4 ((dat1 (E2 m) c).arrAt 3 cfg1.N : Buf (Elt F) ((c : Thread nD τ).loc main_v4))
abbrev E3 : (c : Dev nD) → (b : Ref sig .tc) → Buf (Elt F) ((c : Thread nD τ).loc b) := fun c b => W3 m c b

/-- After the last call: the result array at what its write-backs leave. -/
def W4 (c : Dev nD) : Valuation τ sig (Elt F) :=
  Function.update (W3 m c) main_v5 ((dat2 (E3 m) c).arrAt 2 cfg2.N : Buf (Elt F) ((c : Thread nD τ).loc main_v5))
abbrev E4 : (c : Dev nD) → (b : Ref sig .tc) → Buf (Elt F) ((c : Thread nD τ).loc b) := fun c b => W4 m c b

theorem W2_self (c : Dev nD) : E2 m c main_v3 = (dat0 (E1 m) c).arrAt 2 cfg0.N := by
  unfold E2 W2; exact Function.update_self _ _ _
theorem W2_ne (c : Dev nD) (b : Ref sig .tc) (h : b ≠ main_v3) : E2 m c b = E1 m c b := by
  unfold E2 E1 W2; exact Function.update_of_ne (StableHlo.devRef_ne_of_ne h) _ _
theorem W3_self (c : Dev nD) : E3 m c main_v4 = (dat1 (E2 m) c).arrAt 3 cfg1.N := by
  unfold E3 W3; exact Function.update_self _ _ _
theorem W3_ne (c : Dev nD) (b : Ref sig .tc) (h : b ≠ main_v4) : E3 m c b = E2 m c b := by
  unfold E3 E2 W3; exact Function.update_of_ne (StableHlo.devRef_ne_of_ne h) _ _
theorem W4_self (c : Dev nD) : E4 m c main_v5 = (dat2 (E3 m) c).arrAt 2 cfg2.N := by
  unfold E4 W4; exact Function.update_self _ _ _
theorem W4_ne (c : Dev nD) (b : Ref sig .tc) (h : b ≠ main_v5) : E4 m c b = E3 m c b := by
  unfold E4 E3 W4; exact Function.update_of_ne (StableHlo.devRef_ne_of_ne h) _ _

/-- What each call leaves, as the unknowns the host side's conditional frame is stated over. -/
def outs : Gen.Outs (F := F) := fun J r c => match J with
  | 2 => W2 m c r
  | 3 => W3 m c r
  | _ => W4 m c r

theorem V2_eq (c : Dev nD) : Gen.V2 m (outs m) c = W2 m c := by
  unfold W2; exact congrArg (Function.update (Gen.V1 m c) main_v3) (W2_self m c)
theorem V3_eq (c : Dev nD) : Gen.V3 m (outs m) c = W3 m c := by
  show Function.update (Gen.V2 m (outs m) c) main_v4 (W3 m c main_v4) = W3 m c
  rw [V2_eq]; unfold W3; exact congrArg (Function.update (W2 m c) main_v4) (W3_self m c)
theorem V4_eq (c : Dev nD) : Gen.V4 m (outs m) c = W4 m c := by
  show Function.update (Gen.V3 m (outs m) c) main_v5 (W4 m c main_v5) = W4 m c
  rw [V3_eq]; unfold W4; exact congrArg (Function.update (W3 m c) main_v5) (W4_self m c)

/-- Every call's proof data, each at the contents its call is entered from. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E3 m) c

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.Kernel.Hand

end
-- ==== Proof.Bits.Seg0.lean ====
import proofs.«108809_j59742995087482_2_alg».proof.Proof.Bits.Chain

/-!
# Pallas call 0 as an item of the program

The call is entered holding every unscoped buffer at the contents of the boundary before it and is left holding
them at the contents of the boundary after it.  At entry its windows' arrays are taken out of the unscoped buffers and
handed to the pipeline; at exit they are put back, the output array now at what the write-backs left.  The generator
register rides through the pipeline's invariant untouched, and nothing is owed to another core.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At the call's exit each of its arrays holds what the pipeline leaves: an input what it held, the output its write-backs. -/
theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (W2_ne m c main_arg0 (by decide)).symm)
  | ⟨1, _⟩ => exact ((dat0 (E1 m) c).arrAt_in 1 rfl _).trans ((A_eq0 (E1 m) c 1).trans (W2_ne m c main_v1 (by decide)).symm)
  | ⟨2, _⟩ => exact (W2_self m c).symm

/-- Every other buffer holds what it held at entry. -/
theorem hrest0 (c : Dev nD) : ∀ b, b ∉ Finset.univ.image (Pipeline.arrRef spec0) → E2 m c b = E1 m c b :=
  fun b hb => W2_ne m c b fun e => hb (Finset.mem_image.mpr ⟨2, Finset.mem_univ _, e.symm⟩)

set_option backward.isDefEq.respectTransparency.types false in
/-- The call as an item: entered from every unscoped buffer at the boundary before it, left at the boundary after it. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Seg1.lean ====
import proofs.«108809_j59742995087482_2_alg».proof.Proof.Bits.Chain

/-!
# The attention call as an item of the program

Its three input windows read ONE array — the queries through 512-row blocks of a head pair's 128 columns, the keys and
the values through all 2048 rows of the matching 128 columns further right — so the array cannot be handed to the
pipeline whole three times.  At entry the array's full share is cut in three, one piece per window; no window writes
it, so at exit the three pieces still hold the entry contents and are joined back.  The output array is held whole.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The two buffers behind the call's four windows, held whole. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_v4) ↦{fullShare} Vc main_v4)) := by
  unfold Pipeline.arrBufs
  exact bigSep_eq_bigSepL_of_eq [main_v3, main_v4] (by decide) (by decide) _

/-- The unscoped buffers are those two and the rest. -/
theorem ubufs1_split (c : Dev nD) (W : Valuation τ sig (Elt F)) :
    (StableHlo.held (c : Thread nD τ) (Pipeline.ucRefs τ sig) W : sProp 𝕄)
      = iprop(((((c : Thread nD τ).loc main_v3) ↦{fullShare} W main_v3) ∗ (((c : Thread nD τ).loc main_v4) ↦{fullShare} W main_v4))
          ∗ Pipeline.unscopedRest (Ix := Unit) (Name := ℕ) (U := UR sig nD τ) (Lvl := ℕ) spec1 c (fun b => W b)) := by
  have hsp : (unscopedBufs c (fun b : Ref sig .tc => W b) : sProp 𝕄)
      = iprop(Pipeline.arrBufs spec1 c (fun b => W b) ∗ Pipeline.unscopedRest spec1 c (fun b => W b)) :=
    Pipeline.unscopedBufs_split₀ cfgs 1 (by decide) c _
  rw [Pipeline.unscopedBufs_held, arrBufs1_eq] at hsp
  exact hsp

variable (V : (c : Dev nD) → (b : Ref sig .tc) → Buf (Elt F) ((c : Thread nD τ).loc b))

/-- The pipeline's arrays, window by window: three shares of the one input array, the output array whole. -/
theorem arrays1_eq (c : Dev nD) (G : (w : Fin cfg1.W) → Buf (Elt F) ((cfg1.win w).arr.view.loc (c.tc : Thread nD τ))) :
    (dat1 V c).arrays G = iprop((((c : Thread nD τ).loc main_v3) ↦{fullShare.left} G 0) ∗ (((c : Thread nD τ).loc main_v3) ↦{fullShare.right.left} G 1)
      ∗ (((c : Thread nD τ).loc main_v3) ↦{fullShare.right.right} G 2) ∗ (((c : Thread nD τ).loc main_v4) ↦{fullShare} G 3)) := by
  unfold Dat.arrays
  rw [bigSep_W1, (arr_whole1 0).set_eq_univ, (arr_whole1 3).set_eq_univ]
  rfl

set_option backward.isDefEq.respectTransparency.types false in
/-- The call as an item: entered from every unscoped buffer at the boundary before it, left at the boundary after it. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    show iprop(_ ∗ _ ∗ _) ⊢ |={Set.univ}=> iprop((dat1 (E2 m) c).arrays ((dat1 (E2 m) c).arrAt · 0) ∗ _ ∗ (dat1 (E2 m) c).owesAt () 0 ∗ _ ∗ _)
    rw [arrays1_eq, ubufs1_split]
    iintro ⟨⟨⟨⟨H3, H4⟩, Hrest⟩, Hp, HO⟩, -, -⟩
    ihave H3' := (pointsTo_share (PosShare.mem_left_op_right fullShare)).1 $$ H3
    icases H3' with ⟨H3a, H3r⟩
    ihave H3'' := (pointsTo_share (PosShare.mem_left_op_right fullShare.right)).1 $$ H3r
    icases H3'' with ⟨H3b, H3c⟩
    imodintro
    isplitl [H3a H3b H3c H4]
    · isplitl [H3a]; · iexact H3a
      isplitl [H3b]; · iexact H3b
      isplitl [H3c]; · iexact H3c
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (E2 m) c).arrays ((dat1 (E2 m) c).arrAt · cfg1.N) ∗ (dat1 (E2 m) c).owesAt () (Fin.last cfg1.N) ∗ _ ∗ _) ⊢ |={Set.univ}=> _
    have hrest : (Pipeline.unscopedRest (Ix := Unit) (Name := ℕ) (U := UR sig nD τ) (Lvl := ℕ) spec1 c (fun b => W3 m c b) : sProp 𝕄)
        = Pipeline.unscopedRest spec1 c (E2 m c) := by
      unfold Pipeline.unscopedRest
      exact bigSep_congr fun b hb => by
        beta_reduce
        rw [show W3 m c b = E2 m c b from W3_ne m c b fun e => (Finset.mem_sdiff.mp hb).2 (Finset.mem_image.mpr ⟨3, Finset.mem_univ _, e.symm⟩)]
    rw [arrays1_eq, ubufs1_split, hrest,
      (dat1 (E2 m) c).arrAt_in 0 rfl, (dat1 (E2 m) c).arrAt_in 1 rfl, (dat1 (E2 m) c).arrAt_in 2 rfl,
      show W3 m c main_v3 = E2 m c main_v3 from W3_ne m c main_v3 (by decide),
      show W3 m c main_v4 = (dat1 (E2 m) c).arrAt 3 cfg1.N from W3_self m c]
    iintro ⟨⟨H3a, H3b, H3c, H4⟩, HO, HY, Hrest⟩
    ihave H3r := (pointsTo_share (PosShare.mem_left_op_right fullShare.right)).2 $$ [H3b H3c]
    · isplitl [H3b]; · iexact H3b
      iexact H3c
    ihave H3 := (pointsTo_share (PosShare.mem_left_op_right fullShare)).2 $$ [H3a H3r]
    · isplitl [H3a]; · iexact H3a
      iexact H3r
    imodintro
    isplitl [H3 H4 Hrest]
    · isplitl [H3 H4]
      · isplitl [H3]; · iexact H3
        iexact H4
      iexact Hrest
    isplitl [HY]; · iexact HY
    unfold Pipeline.Dat.owesAt Pipeline.owesWithin
    icases HO with ⟨%W, -, HO⟩; iexists W; iexact HO

end Cert.Kernel.Hand

end
-- ==== Proof.Bits.Seg2.lean ====
import proofs.«108809_j59742995087482_2_alg».proof.Proof.Bits.Chain

/-!
# Pallas call 2 as an item of the program

The call is entered holding every unscoped buffer at the contents of the boundary before it and is left holding
them at the contents of the boundary after it.  At entry its windows' arrays are taken out of the unscoped buffers and
handed to the pipeline; at exit they are put back, the output array now at what the write-backs left.  The generator
register rides through the pipeline's invariant untouched, and nothing is owed to another core.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At the call's exit each of its arrays holds what the pipeline leaves: an input what it held, the output its write-backs. -/
theorem hF2 (c : Dev nD) (w : Fin cfg2.W) : (dat2 (E3 m) c).arrAt w cfg2.N = E4 m c (Pipeline.arrRef spec2 w) := by
  match w with
  | ⟨0, _⟩ => exact ((dat2 (E3 m) c).arrAt_in 0 rfl _).trans ((A_eq2 (E3 m) c 0).trans (W4_ne m c main_v4 (by decide)).symm)
  | ⟨1, _⟩ => exact ((dat2 (E3 m) c).arrAt_in 1 rfl _).trans ((A_eq2 (E3 m) c 1).trans (W4_ne m c main_v2 (by decide)).symm)
  | ⟨2, _⟩ => exact (W4_self m c).symm

/-- Every other buffer holds what it held at entry. -/
theorem hrest2 (c : Dev nD) : ∀ b, b ∉ Finset.univ.image (Pipeline.arrRef spec2) → E4 m c b = E3 m c b :=
  fun b hb => W4_ne m c b fun e => hb (Finset.mem_image.mpr ⟨2, Finset.mem_univ _, e.symm⟩)

set_option backward.isDefEq.respectTransparency.types false in
/-- The call as an item: entered from every unscoped buffer at the boundary before it, left at the boundary after it. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Frame.lean ====
import proofs.«108809_j59742995087482_2_alg».proof.Proof.Bits.Seg0
import proofs.«108809_j59742995087482_2_alg».proof.Proof.Bits.Seg1
import proofs.«108809_j59742995087482_2_alg».proof.Proof.Bits.Seg2

/-!
# The program's run

The three host operations and the three calls, chained: every weakly fair execution from a launch memory ends, nothing
faulting, with every unscoped buffer at the last boundary's contents — each argument as launched (no host operation and
no call writes one), the result array at what the last call's write-backs leave.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's items on every core: the host stretch, then the three calls. -/
abbrev items (c : Dev nD) : List (Seg (pcfgs (F := F)) Gen.adm (pdats m) () defs₀ 𝒱₀ L lv) :=
  Gen.segs m 𝒱₀ L lv (fun _ c => R c) () (pdats m) (reg0 m) (reg1 m) (reg2 m) c

/-- The last item's thread state with the dues set apart. -/
theorem hlast (c : Dev nD) : (iprop(StableHlo.held (c : Thread nD τ) (Pipeline.ucRefs τ sig) (W4 m c) ∗ R c) : sProp 𝕄)
    ⊢ iprop((StableHlo.held (c : Thread nD τ) (Pipeline.ucRefs τ sig) (W4 m c) ∗ ∃ r, prngReg c r) ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  refine Pipeline.θ_run_regions_kit_dev (pcfgs (F := F)) Gen.adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [items, Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W4 m c) ∗ ∃ r, prngReg c r))
    (hch := fun c => ⟨.rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- An argument's buffer at the last boundary is its launch contents: no host operation and no call writes it. -/
theorem W4_arg (c : Dev nD) (b : Ref sig .tc) (h5 : b ≠ main_v5) (h4 : b ≠ main_v4) (h3 : b ≠ main_v3) (hh : b ∉ Gen.hostOps0_W) :
    W4 m c b = m ((c : Thread nD τ).loc b) :=
  (W4_ne m c b h5).trans <| (W3_ne m c b h4).trans <| (W2_ne m c b h3).trans <| (Gen.V1_of m c b hh).trans rfl

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩) (run_all m ρ)

/-- THE RUN WITH THE RESULT NAMED: the result array ends at what the last call's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v5) = (dat2 (E3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (W4_self m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩) (run_all m ρ)

end Cert.Kernel.Hand

end
-- ==== Proof.Region0.lean ====
import proofs.«108809_j59742995087482_2_alg».proof.Proof.Gen.KernelIdeal.Launch
import proofs.«108809_j59742995087482_2_alg».proof.Proof.Gen.KernelIdeal.Skeleton
import proofs.«108809_j59742995087482_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 0 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out0_2`), runs the body once on symbolic buffers, and packs
the result as the per-point obligation the pipeline rule asks for.  Everything is stated at a parameter `V`: the
contents of the core's buffers when the call is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there:
    a point that does not fetch it has the same block index as the last one that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there:
    a point that does not fetch it has the same block index as the last one that did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through a buffer's whole rectangle -/
abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S256x3072 := Rect.unit (s := S256x3072) ![0, 0] S256x3072.size inb_S256x3072_S256x3072_0_0

/-- The output window's staging buffer after the body, from the input windows' blocks: its one store, of the
    body's arithmetic (`k0_pay1`) applied to the loaded blocks. -/
def out0_2 (x0 : Vec F S256x1024 .f32) (x1 : Vec F S3072x1024 .bf16) : Vec F S256x3072 .f32 :=
  View.canon [⟨r0_2, k0_pay1 (View.ld x0 r0_0) (View.ld x1 r0_1)⟩]

/-- The store fills the buffer. -/
theorem cover0_2 (p0 : Vec F S256x3072 .f32) (y : S256x3072.Idx) :
    ∃ pc ∈ ([⟨r0_2, p0⟩] : List (View.Piece (Elt F) S256x3072 .f32)), y ∈ pc.1.set :=
  View.cover_of_tiled [⟨r0_2, p0⟩] S256x3072.size (by rfl) y

/-! ## The body's run -/

set_option maxHeartbeats 1000000 in
/-- The body on whole staging memrefs — the inputs' at contents `x·`, the output's at anything — runs to a state
    holding the inputs' as they were and the output's at `out0_2` of them. -/
theorem sound_kernel0 (c : Dev nD) (E : Set ℕ) (i : grid0.Coords) (a0 : Memref sig .tc .vmem S256x1024 .f32) (ha0 : a0.IsWhole) (a1 : Memref sig .tc .vmem S3072x1024 .bf16) (ha1 : a1.IsWhole) (a2 : Memref sig .tc .vmem S256x3072 .f32) (ha2 : a2.IsWhole)
    (x0 : Vec F S256x1024 .f32) (x1 : Vec F S3072x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Per core: the arrays as the call finds them; after the body at point `t` each input's buffer still at its
    block and the output's at `out0_2` of the input blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«108809_j59742995087482_2_alg».proof.Proof.Gen.KernelIdeal.Launch
import proofs.«108809_j59742995087482_2_alg».proof.Proof.Gen.KernelIdeal.Skeleton
import proofs.«108809_j59742995087482_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out1_3`), runs the body once on symbolic buffers, and packs
the result as the per-point obligation the pipeline rule asks for.  Everything is stated at a parameter `V`: the
contents of the core's buffers when the call is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there:
    a point that does not fetch it has the same block index as the last one that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there:
    a point that does not fetch it has the same block index as the last one that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there:
    a point that does not fetch it has the same block index as the last one that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through a buffer's whole rectangle -/
abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output window's staging buffer after the body, from the input windows' blocks: its one store, of the
    body's arithmetic (`k1_pay1`) applied to the loaded blocks. -/
def out1_3 (x0 : Vec F S512x128 .f32) (x1 : Vec F S2048x128 .f32) (x2 : Vec F S2048x128 .f32) : Vec F S512x128 .f32 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1)) (k1_pay8 (View.ld x0 r1_0) (View.ld x1 r1_1))⟩]

/-- The store fills the buffer. -/
theorem cover1_3 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-! ## The body's run -/

set_option maxHeartbeats 1000000 in
/-- The body on whole staging memrefs — the inputs' at contents `x·`, the output's at anything — runs to a state
    holding the inputs' as they were and the output's at `out1_3` of them. -/
theorem sound_kernel1 (c : Dev nD) (E : Set ℕ) (i : grid1.Coords) (a0 : Memref sig .tc .vmem S512x128 .f32) (ha0 : a0.IsWhole) (a1 : Memref sig .tc .vmem S2048x128 .f32) (ha1 : a1.IsWhole) (a2 : Memref sig .tc .vmem S2048x128 .f32) (ha2 : a2.IsWhole) (a3 : Memref sig .tc .vmem S512x128 .f32) (ha3 : a3.IsWhole)
    (x0 : Vec F S512x128 .f32) (x1 : Vec F S2048x128 .f32) (x2 : Vec F S2048x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel; simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Per core: the arrays as the call finds them; after the body at point `t` each input's buffer still at its
    block and the output's at `out1_3` of the input blocks; nothing owed; the three input windows read one array, each holding a share of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«108809_j59742995087482_2_alg».proof.Proof.Gen.KernelIdeal.Launch
import proofs.«108809_j59742995087482_2_alg».proof.Proof.Gen.KernelIdeal.Skeleton
import proofs.«108809_j59742995087482_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2 at the buffer contents it is entered from

The call's grid walks its blocks one by one.  At a grid point every input window's staging buffer holds the block
of its array at that point (fetched there, or left from an earlier point whose block index was the same), and the
body leaves in the output window's staging buffer one whole-block store whose value is a pure function of the input
blocks.  This file states that function (`out2_2`), runs the body once on symbolic buffers, and packs
the result as the per-point obligation the pipeline rule asks for.  Everything is stated at a parameter `V`: the
contents of the core's buffers when the call is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there:
    a point that does not fetch it has the same block index as the last one that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there:
    a point that does not fetch it has the same block index as the last one that did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through a buffer's whole rectangle -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the input windows' blocks: its one store, of the
    body's arithmetic (`k2_pay1`) applied to the loaded blocks. -/
def out2_2 (x0 : Vec F S512x1024 .f32) (x1 : Vec F S1024x1024 .bf16) : Vec F S512x1024 .f32 :=
  View.canon [⟨r2_2, k2_pay1 (View.ld x0 r2_0) (View.ld x1 r2_1)⟩]

/-- The store fills the buffer. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's run -/

set_option maxHeartbeats 1000000 in
/-- The body on whole staging memrefs — the inputs' at contents `x·`, the output's at anything — runs to a state
    holding the inputs' as they were and the output's at `out2_2` of them. -/
theorem sound_kernel2 (c : Dev nD) (E : Set ℕ) (i : grid2.Coords) (a0 : Memref sig .tc .vmem S512x1024 .f32) (ha0 : a0.IsWhole) (a1 : Memref sig .tc .vmem S1024x1024 .bf16) (ha1 : a1.IsWhole) (a2 : Memref sig .tc .vmem S512x1024 .f32) (ha2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Per core: the arrays as the call finds them; after the body at point `t` each input's buffer still at its
    block and the output's at `out2_2` of the input blocks; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation at a grid point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Chain.lean ====
import proofs.«108809_j59742995087482_2_alg».proof.Proof.Region0
import proofs.«108809_j59742995087482_2_alg».proof.Proof.Region1
import proofs.«108809_j59742995087482_2_alg».proof.Proof.Region2
import proofs.«108809_j59742995087482_2_alg».proof.Proof.Gen.KernelIdeal.Regions

/-!
# The buffers' contents between the three calls

The program is: three host operations (stack the three projection weights and round them and the output weight to
bf16 — the identity at the ideal instance), then three pallas calls in a row, each reading what the one before it
wrote: the fused projection writes the `[2048, 3072]` array of queries, keys and values, the attention call reads that
array through three windows and writes the `[2048, 1024]` array of attended values, the last projection reads it and
writes the result.  This file names the contents of every unscoped buffer at each of the four boundaries — after the
host operations and after each call — as a fold from the launch memory, and the proof data of each call at the
contents it is entered from.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- After the host operations (what the first call is entered from), read at the TensorCore's references. -/
abbrev E1 : (c : Dev nD) → (b : Ref sig .tc) → Buf (Elt F) ((c : Thread nD τ).loc b) := fun c b => Gen.V1 m c b

/-- After the first call: the array of queries, keys and values at what its write-backs leave, all else unchanged. -/
def W2 (c : Dev nD) : Valuation τ sig (Elt F) :=
  Function.update (Gen.V1 m c) main_v3 ((dat0 (E1 m) c).arrAt 2 cfg0.N : Buf (Elt F) ((c : Thread nD τ).loc main_v3))
abbrev E2 : (c : Dev nD) → (b : Ref sig .tc) → Buf (Elt F) ((c : Thread nD τ).loc b) := fun c b => W2 m c b

/-- After the attention call: the array of attended values at what its write-backs leave. -/
def W3 (c : Dev nD) : Valuation τ sig (Elt F) :=
  Function.update (W2 m c) main_v4 ((dat1 (E2 m) c).arrAt 3 cfg1.N : Buf (Elt F) ((c : Thread nD τ).loc main_v4))
abbrev E3 : (c : Dev nD) → (b : Ref sig .tc) → Buf (Elt F) ((c : Thread nD τ).loc b) := fun c b => W3 m c b

/-- After the last call: the result array at what its write-backs leave. -/
def W4 (c : Dev nD) : Valuation τ sig (Elt F) :=
  Function.update (W3 m c) main_v5 ((dat2 (E3 m) c).arrAt 2 cfg2.N : Buf (Elt F) ((c : Thread nD τ).loc main_v5))
abbrev E4 : (c : Dev nD) → (b : Ref sig .tc) → Buf (Elt F) ((c : Thread nD τ).loc b) := fun c b => W4 m c b

theorem W2_self (c : Dev nD) : E2 m c main_v3 = (dat0 (E1 m) c).arrAt 2 cfg0.N := by
  unfold E2 W2; exact Function.update_self _ _ _
theorem W2_ne (c : Dev nD) (b : Ref sig .tc) (h : b ≠ main_v3) : E2 m c b = E1 m c b := by
  unfold E2 E1 W2; exact Function.update_of_ne (StableHlo.devRef_ne_of_ne h) _ _
theorem W3_self (c : Dev nD) : E3 m c main_v4 = (dat1 (E2 m) c).arrAt 3 cfg1.N := by
  unfold E3 W3; exact Function.update_self _ _ _
theorem W3_ne (c : Dev nD) (b : Ref sig .tc) (h : b ≠ main_v4) : E3 m c b = E2 m c b := by
  unfold E3 E2 W3; exact Function.update_of_ne (StableHlo.devRef_ne_of_ne h) _ _
theorem W4_self (c : Dev nD) : E4 m c main_v5 = (dat2 (E3 m) c).arrAt 2 cfg2.N := by
  unfold E4 W4; exact Function.update_self _ _ _
theorem W4_ne (c : Dev nD) (b : Ref sig .tc) (h : b ≠ main_v5) : E4 m c b = E3 m c b := by
  unfold E4 E3 W4; exact Function.update_of_ne (StableHlo.devRef_ne_of_ne h) _ _

/-- What each call leaves, as the unknowns the host side's conditional frame is stated over. -/
def outs : Gen.Outs (F := F) := fun J r c => match J with
  | 2 => W2 m c r
  | 3 => W3 m c r
  | _ => W4 m c r

theorem V2_eq (c : Dev nD) : Gen.V2 m (outs m) c = W2 m c := by
  unfold W2; exact congrArg (Function.update (Gen.V1 m c) main_v3) (W2_self m c)
theorem V3_eq (c : Dev nD) : Gen.V3 m (outs m) c = W3 m c := by
  show Function.update (Gen.V2 m (outs m) c) main_v4 (W3 m c main_v4) = W3 m c
  rw [V2_eq]; unfold W3; exact congrArg (Function.update (W2 m c) main_v4) (W3_self m c)
theorem V4_eq (c : Dev nD) : Gen.V4 m (outs m) c = W4 m c := by
  show Function.update (Gen.V3 m (outs m) c) main_v5 (W4 m c main_v5) = W4 m c
  rw [V3_eq]; unfold W4; exact congrArg (Function.update (W3 m c) main_v5) (W4_self m c)

/-- Every call's proof data, each at the contents its call is entered from. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E3 m) c

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.KernelIdeal.Hand

end
-- ==== Proof.Seg0.lean ====
import proofs.«108809_j59742995087482_2_alg».proof.Proof.Chain

/-!
# Pallas call 0 as an item of the program

The call is entered holding every unscoped buffer at the contents of the boundary before it and is left holding
them at the contents of the boundary after it.  At entry its windows' arrays are taken out of the unscoped buffers and
handed to the pipeline; at exit they are put back, the output array now at what the write-backs left.  The generator
register rides through the pipeline's invariant untouched, and nothing is owed to another core.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the call's exit each of its arrays holds what the pipeline leaves: an input what it held, the output its write-backs. -/
theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (W2_ne m c main_arg0 (by decide)).symm)
  | ⟨1, _⟩ => exact ((dat0 (E1 m) c).arrAt_in 1 rfl _).trans ((A_eq0 (E1 m) c 1).trans (W2_ne m c main_v1 (by decide)).symm)
  | ⟨2, _⟩ => exact (W2_self m c).symm

/-- Every other buffer holds what it held at entry. -/
theorem hrest0 (c : Dev nD) : ∀ b, b ∉ Finset.univ.image (Pipeline.arrRef spec0) → E2 m c b = E1 m c b :=
  fun b hb => W2_ne m c b fun e => hb (Finset.mem_image.mpr ⟨2, Finset.mem_univ _, e.symm⟩)

set_option backward.isDefEq.respectTransparency.types false in
/-- The call as an item: entered from every unscoped buffer at the boundary before it, left at the boundary after it. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg1.lean ====
import proofs.«108809_j59742995087482_2_alg».proof.Proof.Chain

/-!
# The attention call as an item of the program

Its three input windows read ONE array — the queries through 512-row blocks of a head pair's 128 columns, the keys and
the values through all 2048 rows of the matching 128 columns further right — so the array cannot be handed to the
pipeline whole three times.  At entry the array's full share is cut in three, one piece per window; no window writes
it, so at exit the three pieces still hold the entry contents and are joined back.  The output array is held whole.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The two buffers behind the call's four windows, held whole. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_v4) ↦{fullShare} Vc main_v4)) := by
  unfold Pipeline.arrBufs
  exact bigSep_eq_bigSepL_of_eq [main_v3, main_v4] (by decide) (by decide) _

/-- The unscoped buffers are those two and the rest. -/
theorem ubufs1_split (c : Dev nD) (W : Valuation τ sig (Elt F)) :
    (StableHlo.held (c : Thread nD τ) (Pipeline.ucRefs τ sig) W : sProp 𝕄)
      = iprop(((((c : Thread nD τ).loc main_v3) ↦{fullShare} W main_v3) ∗ (((c : Thread nD τ).loc main_v4) ↦{fullShare} W main_v4))
          ∗ Pipeline.unscopedRest (Ix := Unit) (Name := ℕ) (U := UR sig nD τ) (Lvl := ℕ) spec1 c (fun b => W b)) := by
  have hsp : (unscopedBufs c (fun b : Ref sig .tc => W b) : sProp 𝕄)
      = iprop(Pipeline.arrBufs spec1 c (fun b => W b) ∗ Pipeline.unscopedRest spec1 c (fun b => W b)) :=
    Pipeline.unscopedBufs_split₀ cfgs 1 (by decide) c _
  rw [Pipeline.unscopedBufs_held, arrBufs1_eq] at hsp
  exact hsp

variable (V : (c : Dev nD) → (b : Ref sig .tc) → Buf (Elt F) ((c : Thread nD τ).loc b))

/-- The pipeline's arrays, window by window: three shares of the one input array, the output array whole. -/
theorem arrays1_eq (c : Dev nD) (G : (w : Fin cfg1.W) → Buf (Elt F) ((cfg1.win w).arr.view.loc (c.tc : Thread nD τ))) :
    (dat1 V c).arrays G = iprop((((c : Thread nD τ).loc main_v3) ↦{fullShare.left} G 0) ∗ (((c : Thread nD τ).loc main_v3) ↦{fullShare.right.left} G 1)
      ∗ (((c : Thread nD τ).loc main_v3) ↦{fullShare.right.right} G 2) ∗ (((c : Thread nD τ).loc main_v4) ↦{fullShare} G 3)) := by
  unfold Dat.arrays
  rw [bigSep_W1, (arr_whole1 0).set_eq_univ, (arr_whole1 3).set_eq_univ]
  rfl

set_option backward.isDefEq.respectTransparency.types false in
/-- The call as an item: entered from every unscoped buffer at the boundary before it, left at the boundary after it. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    show iprop(_ ∗ _ ∗ _) ⊢ |={Set.univ}=> iprop((dat1 (E2 m) c).arrays ((dat1 (E2 m) c).arrAt · 0) ∗ _ ∗ (dat1 (E2 m) c).owesAt () 0 ∗ _ ∗ _)
    rw [arrays1_eq, ubufs1_split]
    iintro ⟨⟨⟨⟨H3, H4⟩, Hrest⟩, Hp, HO⟩, -, -⟩
    ihave H3' := (pointsTo_share (PosShare.mem_left_op_right fullShare)).1 $$ H3
    icases H3' with ⟨H3a, H3r⟩
    ihave H3'' := (pointsTo_share (PosShare.mem_left_op_right fullShare.right)).1 $$ H3r
    icases H3'' with ⟨H3b, H3c⟩
    imodintro
    isplitl [H3a H3b H3c H4]
    · isplitl [H3a]; · iexact H3a
      isplitl [H3b]; · iexact H3b
      isplitl [H3c]; · iexact H3c
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (E2 m) c).arrays ((dat1 (E2 m) c).arrAt · cfg1.N) ∗ (dat1 (E2 m) c).owesAt () (Fin.last cfg1.N) ∗ _ ∗ _) ⊢ |={Set.univ}=> _
    have hrest : (Pipeline.unscopedRest (Ix := Unit) (Name := ℕ) (U := UR sig nD τ) (Lvl := ℕ) spec1 c (fun b => W3 m c b) : sProp 𝕄)
        = Pipeline.unscopedRest spec1 c (E2 m c) := by
      unfold Pipeline.unscopedRest
      exact bigSep_congr fun b hb => by
        beta_reduce
        rw [show W3 m c b = E2 m c b from W3_ne m c b fun e => (Finset.mem_sdiff.mp hb).2 (Finset.mem_image.mpr ⟨3, Finset.mem_univ _, e.symm⟩)]
    rw [arrays1_eq, ubufs1_split, hrest,
      (dat1 (E2 m) c).arrAt_in 0 rfl, (dat1 (E2 m) c).arrAt_in 1 rfl, (dat1 (E2 m) c).arrAt_in 2 rfl,
      show W3 m c main_v3 = E2 m c main_v3 from W3_ne m c main_v3 (by decide),
      show W3 m c main_v4 = (dat1 (E2 m) c).arrAt 3 cfg1.N from W3_self m c]
    iintro ⟨⟨H3a, H3b, H3c, H4⟩, HO, HY, Hrest⟩
    ihave H3r := (pointsTo_share (PosShare.mem_left_op_right fullShare.right)).2 $$ [H3b H3c]
    · isplitl [H3b]; · iexact H3b
      iexact H3c
    ihave H3 := (pointsTo_share (PosShare.mem_left_op_right fullShare)).2 $$ [H3a H3r]
    · isplitl [H3a]; · iexact H3a
      iexact H3r
    imodintro
    isplitl [H3 H4 Hrest]
    · isplitl [H3 H4]
      · isplitl [H3]; · iexact H3
        iexact H4
      iexact Hrest
    isplitl [HY]; · iexact HY
    unfold Pipeline.Dat.owesAt Pipeline.owesWithin
    icases HO with ⟨%W, -, HO⟩; iexists W; iexact HO

end Cert.KernelIdeal.Hand

end
-- ==== Proof.Seg2.lean ====
import proofs.«108809_j59742995087482_2_alg».proof.Proof.Chain

/-!
# Pallas call 2 as an item of the program

The call is entered holding every unscoped buffer at the contents of the boundary before it and is left holding
them at the contents of the boundary after it.  At entry its windows' arrays are taken out of the unscoped buffers and
handed to the pipeline; at exit they are put back, the output array now at what the write-backs left.  The generator
register rides through the pipeline's invariant untouched, and nothing is owed to another core.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the call's exit each of its arrays holds what the pipeline leaves: an input what it held, the output its write-backs. -/
theorem hF2 (c : Dev nD) (w : Fin cfg2.W) : (dat2 (E3 m) c).arrAt w cfg2.N = E4 m c (Pipeline.arrRef spec2 w) := by
  match w with
  | ⟨0, _⟩ => exact ((dat2 (E3 m) c).arrAt_in 0 rfl _).trans ((A_eq2 (E3 m) c 0).trans (W4_ne m c main_v4 (by decide)).symm)
  | ⟨1, _⟩ => exact ((dat2 (E3 m) c).arrAt_in 1 rfl _).trans ((A_eq2 (E3 m) c 1).trans (W4_ne m c main_v2 (by decide)).symm)
  | ⟨2, _⟩ => exact (W4_self m c).symm

/-- Every other buffer holds what it held at entry. -/
theorem hrest2 (c : Dev nD) : ∀ b, b ∉ Finset.univ.image (Pipeline.arrRef spec2) → E4 m c b = E3 m c b :=
  fun b hb => W4_ne m c b fun e => hb (Finset.mem_image.mpr ⟨2, Finset.mem_univ _, e.symm⟩)

set_option backward.isDefEq.respectTransparency.types false in
/-- The call as an item: entered from every unscoped buffer at the boundary before it, left at the boundary after it. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Frame.lean ====
import proofs.«108809_j59742995087482_2_alg».proof.Proof.Seg0
import proofs.«108809_j59742995087482_2_alg».proof.Proof.Seg1
import proofs.«108809_j59742995087482_2_alg».proof.Proof.Seg2

/-!
# The program's run

The three host operations and the three calls, chained: every weakly fair execution from a launch memory ends, nothing
faulting, with every unscoped buffer at the last boundary's contents — each argument as launched (no host operation and
no call writes one), the result array at what the last call's write-backs leave.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's items on every core: the host stretch, then the three calls. -/
abbrev items (c : Dev nD) : List (Seg (pcfgs (F := F)) Gen.adm (pdats m) () defs₀ 𝒱₀ L lv) :=
  Gen.segs m 𝒱₀ L lv (fun _ c => R c) () (pdats m) (reg0 m) (reg1 m) (reg2 m) c

/-- The last item's thread state with the dues set apart. -/
theorem hlast (c : Dev nD) : (iprop(StableHlo.held (c : Thread nD τ) (Pipeline.ucRefs τ sig) (W4 m c) ∗ R c) : sProp 𝕄)
    ⊢ iprop((StableHlo.held (c : Thread nD τ) (Pipeline.ucRefs τ sig) (W4 m c) ∗ ∃ r, prngReg c r) ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  refine Pipeline.θ_run_regions_kit_dev (pcfgs (F := F)) Gen.adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [items, Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W4 m c) ∗ ∃ r, prngReg c r))
    (hch := fun c => ⟨.rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- An argument's buffer at the last boundary is its launch contents: no host operation and no call writes it. -/
theorem W4_arg (c : Dev nD) (b : Ref sig .tc) (h5 : b ≠ main_v5) (h4 : b ≠ main_v4) (h3 : b ≠ main_v3) (hh : b ∉ Gen.hostOps0_W) :
    W4 m c b = m ((c : Thread nD τ).loc b) :=
  (W4_ne m c b h5).trans <| (W3_ne m c b h4).trans <| (W2_ne m c b h3).trans <| (Gen.V1_of m c b hh).trans rfl

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩) (run_all m ρ)

/-- THE RUN WITH THE RESULT NAMED: the result array ends at what the last call's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v5) = (dat2 (E3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (W4_self m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩) (run_all m ρ)

end Cert.KernelIdeal.Hand

end
-- ==== Proof.Spec.lean ====
import Idealize.ShloMosaic.PureOps.Ideal
import Idealize.ShloMosaic.Lib.ValueIdx

/-!
# Multi-head attention over the extended reals, as one function of the five argument arrays

Sixteen heads of width 64 over 2048 positions and 1024 features.  A position's queries, keys and values are its features
projected by the rows of three weight matrices; head `h` owns columns `64h … 64h+63` of each.  The score of query
position `s` against key position `t` in a head is the dot product of the head's query and key slices, times one
eighth; a row of scores is turned into weights by subtracting the row's maximum, exponentiating and dividing by the
row's sum; the head's output at `s` is the weighted sum of the head's value slices; the sixteen outputs side by side
are projected by the rows of the output weights.  Both programs compute exactly this, in different layouts.
-/

noncomputable section

namespace Cert.Spec

open Idealize.ShloMosaic Idealize.ShloMosaic.ValueIdx

/-- A rank-2 array as a function of its row and column. -/
def arr2 {n k : ℕ} (a : (⟨2, ![n, k]⟩ : Shape).Idx → EReal) : Fin n → Fin k → EReal := fun s j => a (ix2 s j)

/-- Rows of `x` against rows of `w`: `x · wᵀ`. -/
def proj {n k o : ℕ} (x : Fin n → Fin k → EReal) (w : Fin o → Fin k → EReal) (s : Fin n) (j : Fin o) : EReal :=
  ∑ kk : Fin k, x s kk * w j kk

/-- Column `e` of head `h` in the flat layout. -/
def col (h : Fin 16) (e : Fin 64) : Fin 1024 := ⟨64 * h.val + e.val, by omega⟩
/-- The head a flat column belongs to, and its place in the head. -/
def hd (j : Fin 1024) : Fin 16 := ⟨j.val / 64, by omega⟩
def ld (j : Fin 1024) : Fin 64 := ⟨j.val % 64, Nat.mod_lt _ (by norm_num)⟩

theorem col_hd_ld (j : Fin 1024) : col (hd j) (ld j) = j := Fin.ext (by simp only [col, hd, ld]; omega)

section
variable (Q K V : Fin 2048 → Fin 1024 → EReal)

/-- The scaled score of query position `s` against key position `t` in head `h`. -/
def score (h : Fin 16) (s t : Fin 2048) : EReal :=
  (∑ e : Fin 64, Q s (col h e) * K t (col h e)) * Ideal.ofBits .f32 0x3E000000#32
/-- A row's largest score (the fold starts from the f32 word of minus infinity). -/
def rowMax (h : Fin 16) (s : Fin 2048) : EReal :=
  (Finset.univ : Finset (Fin 2048)).fold max (Ideal.ofBits .f32 0xFF800000#32) (fun t => score Q K h s t)
/-- The shifted exponentials and their row sum. -/
def expo (h : Fin 16) (s t : Fin 2048) : EReal := Ideal.exp (score Q K h s t - rowMax Q K h s)
def rowSum (h : Fin 16) (s : Fin 2048) : EReal := ∑ t : Fin 2048, expo Q K h s t
/-- Head `h`'s output at position `s`, feature `d`. -/
def attn (s : Fin 2048) (h : Fin 16) (d : Fin 64) : EReal :=
  ∑ t : Fin 2048, Ideal.div (expo Q K h s t) (rowSum Q K h s) * V t (col h d)
/-- The heads side by side. -/
def heads (s : Fin 2048) (j : Fin 1024) : EReal := attn Q K V s (hd j) (ld j)
end

/-- The queries, keys and values as the three column ranges of one `[2048, 3072]` array. -/
def qOf (a : (⟨2, ![2048, 3072]⟩ : Shape).Idx → EReal) : Fin 2048 → Fin 1024 → EReal := fun s j => a (ix2 s ⟨j.val, by omega⟩)
def kOf (a : (⟨2, ![2048, 3072]⟩ : Shape).Idx → EReal) : Fin 2048 → Fin 1024 → EReal := fun s j => a (ix2 s ⟨1024 + j.val, by omega⟩)
def vOf (a : (⟨2, ![2048, 3072]⟩ : Shape).Idx → EReal) : Fin 2048 → Fin 1024 → EReal := fun s j => a (ix2 s ⟨2048 + j.val, by omega⟩)

/-- The whole layer. -/
def out (x : Fin 2048 → Fin 1024 → EReal) (wq wk wv wo : Fin 1024 → Fin 1024 → EReal) (s : Fin 2048) (n : Fin 1024) : EReal :=
  proj (heads (proj x wq) (proj x wk) (proj x wv)) wo s n

end Cert.Spec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LinValue0.lean ====
import proofs.«108809_j59742995087482_2_alg».proof.Proof.Region0
import proofs.«108809_j59742995087482_2_alg».proof.Proof.Spec
import proofs.«108809_j59742995087482_2_alg».proof.Proof.LibPlainDot
import Idealize.ShloMosaic.Lib.Pipeline.Value
import Idealize.ShloMosaic.Lib.ValueIdx
import Idealize.ShloMosaic.PureOps.Ideal.Laws

/-!
# What the fused query/key/value projection leaves in its output array

The call walks 8 row blocks of 256 rows.  At a block its body rounds the block of the left array and the whole
weight array to bf16 (the identity on extended reals), transposes the weights and multiplies into a zero accumulator:
entry `(r, j)` of what it stores is the sum over `k` of the left block's `(r, k)` times the weights' `(j, k)`.  The
blocks tile the output array by rows, so the array ends holding, at `(s, j)`, row `s` of the left array against row `j`
of the weights.
-/

set_option maxRecDepth 16384

noncomputable section

namespace Cert.KernelIdeal.LinValue0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- A rank-2 transpose read at an index. -/
theorem transpose2_apply {a b : ℕ} {α : Type} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun bb => by
    match bb with
    | ⟨0, _⟩ => rfl
    | ⟨1, _⟩ => rfl)

/-- The body's arithmetic at an index: the left block's row against the weights' row. -/
theorem pay_apply (x0 : Vec Ideal S256x1024 .f32) (x1 : Vec Ideal S3072x1024 .bf16) (r : Fin 256) (j : Fin 3072) :
    k0_pay1 (F := Ideal) x0 x1 (ix2 r j) = ∑ k : Fin 1024, x0 (ix2 r k) * x1 (ix2 j k) := by
  unfold k0_pay1
  refine (Cert.Lib.PlainDot.matmul_zero_apply dot_S256x1024_S1024x3072_S256x3072_1_0_0_1_n_n_wf none _ _ r j).trans ?_
  refine Finset.sum_congr rfl fun k _ => ?_
  rw [transpose2_apply]
  simp only [shapeCast_self]
  rfl

theorem hz : (![0, 0] : Fin 2 → Nat) = fun _ => 0 := funext fun a => by fin_cases a <;> rfl

variable (V : (c : Dev nD) → (b : Ref sig .tc) → Buf (Elt Ideal) ((c : Thread nD τ).loc b))

/-- The output array's final contents: rows of the left array against rows of the weights. -/
def G (c : Dev nD) : S2048x3072.Idx → EReal :=
  fun i => Cert.Spec.proj (Cert.Spec.arr2 (V c main_arg0)) (Cert.Spec.arr2 (V c main_v1)) (i 0) (i 1)

/-- The printed index maps over the grid: the left and output blocks are row block `t`, the weights one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S256x1024) hz, View.ld_unit_zero (S := S3072x1024) hz]
  obtain ⟨e00, e01, e10, e11, e20, e21⟩ := idx_facts t
  funext y
  obtain ⟨r, j, rfl⟩ : ∃ (r : Fin 256) (j : Fin 3072), y = ix2 r j := ⟨y 0, y 1, eq_ix2 y⟩
  show k0_pay1 (iblk0 V c 0 t) (iblk0 V c 1 t) (ix2 r j) = G V c (((cfg0.win 2).blk t).view.emb (ix2 r j))
  refine (pay_apply (iblk0 V c 0 t) (iblk0 V c 1 t) r j).trans ?_
  unfold G Cert.Spec.proj Cert.Spec.arr2
  refine Finset.sum_congr rfl fun k _ => ?_
  have h0 : ((cfg0.win 0).blk t).view.emb (ix2 r k) = ix2 ((((cfg0.win 2).blk t).view.emb (ix2 r j)) 0) k := by
    funext a; apply Fin.ext
    match a with
    | ⟨0, _⟩ => show win0_0.index t (0 : Fin 2) * 256 + 1 * r.val = win0_2.index t (0 : Fin 2) * 256 + 1 * r.val; omega
    | ⟨1, _⟩ => show win0_0.index t (1 : Fin 2) * 1024 + 1 * k.val = k.val; omega
  have h1 : ((cfg0.win 1).blk t).view.emb (ix2 j k) = ix2 ((((cfg0.win 2).blk t).view.emb (ix2 r j)) 1) k := by
    funext a; apply Fin.ext
    match a with
    | ⟨0, _⟩ => show win0_1.index t (0 : Fin 2) * 3072 + 1 * j.val = win0_2.index t (1 : Fin 2) * 3072 + 1 * j.val; omega
    | ⟨1, _⟩ => show win0_1.index t (1 : Fin 2) * 1024 + 1 * k.val = k.val; omega
  have e0 : iblk0 V c 0 t (ix2 r k) = V c main_arg0 (ix2 ((((cfg0.win 2).blk t).view.emb (ix2 r j)) 0) k) := by
    exact congrArg (V c main_arg0) h0
  have e1 : iblk0 V c 1 t (ix2 j k) = V c main_v1 (ix2 ((((cfg0.win 2).blk t).view.emb (ix2 r j)) 1) k) := by
    exact congrArg (V c main_v1) h1
  rw [e0, e1]

/-- An index of the output array is in point `t`'s block iff each coordinate is in the block's range. -/
theorem mem_blk (t : Fin cfg0.N) (i : S2048x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v3).slice (win0_2.rect t)).set ↔ _
  rw [View.set_slice_whole, Rect.mem_set_unit]
  exact Iff.rfl

/-- The row blocks tile the output array. -/
theorem cover (i : S2048x3072.Idx) : ∃ t : Fin cfg0.N, (cfg0.win 2).flush t = true ∧ i ∈ ((cfg0.win 2).blk t).view.set := by
  have hi0 : (i 0).val < 2048 := (i 0).isLt
  have hi1 : (i 1).val < 3072 := (i 1).isLt
  have hN : grid0.N = 8 := N_0
  let t : Fin cfg0.N := ⟨(i 0).val / 256, by show (i 0).val / 256 < grid0.N; rw [hN]; omega⟩
  obtain ⟨-, -, -, -, e20, e21⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 3072 ≤ (i 1).val ∧ (i 1).val < win0_2.index t (1 : Fin 2) * 3072 + 3072; omega

/-- THE ARRAY after the call. -/
theorem final (c : Dev nD) : (dat0 V c).arrAt 2 cfg0.N = G V c :=
  (dat0 V c).arrAt_eq_of_cover 2 (G V c) (fun t _ => flushed_eq V c t) (cover)

end Cert.KernelIdeal.LinValue0

end
-- ==== Proof.LinValue2.lean ====
import proofs.«108809_j59742995087482_2_alg».proof.Proof.Region2
import proofs.«108809_j59742995087482_2_alg».proof.Proof.Spec
import proofs.«108809_j59742995087482_2_alg».proof.Proof.LibPlainDot
import Idealize.ShloMosaic.Lib.Pipeline.Value
import Idealize.ShloMosaic.Lib.ValueIdx
import Idealize.ShloMosaic.PureOps.Ideal.Laws

/-!
# What the output projection leaves in its output array

The call walks 4 row blocks of 512 rows.  At a block its body rounds the block of the left array and the whole
weight array to bf16 (the identity on extended reals), transposes the weights and multiplies into a zero accumulator:
entry `(r, j)` of what it stores is the sum over `k` of the left block's `(r, k)` times the weights' `(j, k)`.  The
blocks tile the output array by rows, so the array ends holding, at `(s, j)`, row `s` of the left array against row `j`
of the weights.
-/

set_option maxRecDepth 16384

noncomputable section

namespace Cert.KernelIdeal.LinValue2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- A rank-2 transpose read at an index. -/
theorem transpose2_apply {a b : ℕ} {α : Type} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun bb => by
    match bb with
    | ⟨0, _⟩ => rfl
    | ⟨1, _⟩ => rfl)

/-- The body's arithmetic at an index: the left block's row against the weights' row. -/
theorem pay_apply (x0 : Vec Ideal S512x1024 .f32) (x1 : Vec Ideal S1024x1024 .bf16) (r : Fin 512) (j : Fin 1024) :
    k2_pay1 (F := Ideal) x0 x1 (ix2 r j) = ∑ k : Fin 1024, x0 (ix2 r k) * x1 (ix2 j k) := by
  unfold k2_pay1
  refine (Cert.Lib.PlainDot.matmul_zero_apply dot_S512x1024_S1024x1024_S512x1024_1_0_0_1_n_n_wf none _ _ r j).trans ?_
  refine Finset.sum_congr rfl fun k _ => ?_
  rw [transpose2_apply]
  simp only [shapeCast_self]
  rfl

theorem hz : (![0, 0] : Fin 2 → Nat) = fun _ => 0 := funext fun a => by fin_cases a <;> rfl

variable (V : (c : Dev nD) → (b : Ref sig .tc) → Buf (Elt Ideal) ((c : Thread nD τ).loc b))

/-- The output array's final contents: rows of the left array against rows of the weights. -/
def G (c : Dev nD) : S2048x1024.Idx → EReal :=
  fun i => Cert.Spec.proj (Cert.Spec.arr2 (V c main_v4)) (Cert.Spec.arr2 (V c main_v2)) (i 0) (i 1)

/-- The printed index maps over the grid: the left and output blocks are row block `t`, the weights one whole block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S512x1024) hz, View.ld_unit_zero (S := S1024x1024) hz]
  obtain ⟨e00, e01, e10, e11, e20, e21⟩ := idx_facts t
  funext y
  obtain ⟨r, j, rfl⟩ : ∃ (r : Fin 512) (j : Fin 1024), y = ix2 r j := ⟨y 0, y 1, eq_ix2 y⟩
  show k2_pay1 (iblk2 V c 0 t) (iblk2 V c 1 t) (ix2 r j) = G V c (((cfg2.win 2).blk t).view.emb (ix2 r j))
  refine (pay_apply (iblk2 V c 0 t) (iblk2 V c 1 t) r j).trans ?_
  unfold G Cert.Spec.proj Cert.Spec.arr2
  refine Finset.sum_congr rfl fun k _ => ?_
  have h0 : ((cfg2.win 0).blk t).view.emb (ix2 r k) = ix2 ((((cfg2.win 2).blk t).view.emb (ix2 r j)) 0) k := by
    funext a; apply Fin.ext
    match a with
    | ⟨0, _⟩ => show win2_0.index t (0 : Fin 2) * 512 + 1 * r.val = win2_2.index t (0 : Fin 2) * 512 + 1 * r.val; omega
    | ⟨1, _⟩ => show win2_0.index t (1 : Fin 2) * 1024 + 1 * k.val = k.val; omega
  have h1 : ((cfg2.win 1).blk t).view.emb (ix2 j k) = ix2 ((((cfg2.win 2).blk t).view.emb (ix2 r j)) 1) k := by
    funext a; apply Fin.ext
    match a with
    | ⟨0, _⟩ => show win2_1.index t (0 : Fin 2) * 1024 + 1 * j.val = win2_2.index t (1 : Fin 2) * 1024 + 1 * j.val; omega
    | ⟨1, _⟩ => show win2_1.index t (1 : Fin 2) * 1024 + 1 * k.val = k.val; omega
  have e0 : iblk2 V c 0 t (ix2 r k) = V c main_v4 (ix2 ((((cfg2.win 2).blk t).view.emb (ix2 r j)) 0) k) := by
    exact congrArg (V c main_v4) h0
  have e1 : iblk2 V c 1 t (ix2 j k) = V c main_v2 (ix2 ((((cfg2.win 2).blk t).view.emb (ix2 r j)) 1) k) := by
    exact congrArg (V c main_v2) h1
  rw [e0, e1]

/-- An index of the output array is in point `t`'s block iff each coordinate is in the block's range. -/
theorem mem_blk (t : Fin cfg2.N) (i : S2048x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v5).slice (win2_2.rect t)).set ↔ _
  rw [View.set_slice_whole, Rect.mem_set_unit]
  exact Iff.rfl

/-- The row blocks tile the output array. -/
theorem cover (i : S2048x1024.Idx) : ∃ t : Fin cfg2.N, (cfg2.win 2).flush t = true ∧ i ∈ ((cfg2.win 2).blk t).view.set := by
  have hi0 : (i 0).val < 2048 := (i 0).isLt
  have hi1 : (i 1).val < 1024 := (i 1).isLt
  have hN : grid2.N = 4 := N_2
  let t : Fin cfg2.N := ⟨(i 0).val / 512, by show (i 0).val / 512 < grid2.N; rw [hN]; omega⟩
  obtain ⟨-, -, -, -, e20, e21⟩ := idx_facts t
  have ht : t.val = (i 0).val / 512 := rfl
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- THE ARRAY after the call. -/
theorem final (c : Dev nD) : (dat2 V c).arrAt 2 cfg2.N = G V c :=
  (dat2 V c).arrAt_eq_of_cover 2 (G V c) (fun t _ => flushed_eq V c t) (cover)

end Cert.KernelIdeal.LinValue2

end
-- ==== Proof.HostRead.lean ====
import proofs.«108809_j59742995087482_2_alg».proof.Proof.Chain
import proofs.«108809_j59742995087482_2_alg».proof.Proof.Spec
import Idealize.ShloMosaic.Lib.StableHlo.Run
import Idealize.ShloMosaic.Lib.Pipeline.Value
import Idealize.ShloMosaic.Lib.ValueIdx

/-!
# What the host operations before the calls leave

Three operations: the three projection weights stacked on axis 0 into a `[3072, 1024]` array, that array rounded to
bf16, and the output weights rounded to bf16.  On extended reals rounding is the identity, so the stacked array's rows
`0 … 1023` are the query weights' rows, `1024 … 2047` the key weights', `2048 … 3071` the value weights', and the
rounded output weights are the output weights.  No operation writes the input array.
-/

noncomputable section

namespace Cert.KernelIdeal.HostRead

open Idealize.ShloMosaic Idealize.ShloMosaic.TcCoe Idealize.ShloMosaic.ValueIdx Idealize.SL.Sem Idealize.ShloMosaic.StableHlo
open Cert.KernelIdeal Cert.KernelIdeal.Gen Cert.KernelIdeal.Hand

variable (m : (ℓ : Loc nD τ sig) → Buf (Elt Ideal) ℓ)

/-- The input array is as launched. -/
theorem arg0_eq (c : Dev nD) : E1 m c main_arg0 = m ((c : Thread nD τ).loc main_arg0) :=
  (Gen.V1_of m c main_arg0 (by decide)).trans rfl

/-- The rounded output weights are the output weights. -/
theorem v2_eq (c : Dev nD) : @Eq (S1024x1024.Idx → EReal) (E1 m c main_v2) (m ((c : Thread nD τ).loc main_arg4)) := by
  have e : @Eq (FVec Ideal S1024x1024 .bf16) (E1 m c main_v2)
      (truncf .bf16 (show FVec Ideal S1024x1024 .f32 from Gen.V0 m c (Proc.devRef .tc main_arg4)) bitsLt_bf16_f32) := by
    show StableHlo.after hostOps0 (Gen.V0 m c) (Proc.devRef .tc main_v2) = _
    after_results
  rw [e]; rfl

/-- The stacked, rounded weights as the join of the three weight arrays. -/
theorem v1_eq (c : Dev nD) : @Eq (S3072x1024.Idx → EReal) (E1 m c main_v1)
    (concatenate S3072x1024 0 [⟨S1024x1024, m ((c : Thread nD τ).loc main_arg1)⟩, ⟨S1024x1024, m ((c : Thread nD τ).loc main_arg2)⟩,
        ⟨S1024x1024, m ((c : Thread nD τ).loc main_arg3)⟩] concatenates_S1024x1024_S1024x1024_S1024x1024_S3072x1024_d0) := by
  have e : @Eq (FVec Ideal S3072x1024 .bf16) (E1 m c main_v1)
      (truncf .bf16 (show FVec Ideal S3072x1024 .f32 from concatenate S3072x1024 0 [⟨S1024x1024, m ((c : Thread nD τ).loc main_arg1)⟩, ⟨S1024x1024, m ((c : Thread nD τ).loc main_arg2)⟩,
        ⟨S1024x1024, m ((c : Thread nD τ).loc main_arg3)⟩] concatenates_S1024x1024_S1024x1024_S1024x1024_S3072x1024_d0) bitsLt_bf16_f32) := by
    show StableHlo.after hostOps0 (Gen.V0 m c) (Proc.devRef .tc main_v1) = _
    after_results
    rfl
  rw [e]; rfl

/-- Row `pre + j` of the stacked weights is row `j` of piece `p`, whose rows start at `pre`. -/
theorem stacked_row (c : Dev nD) (p : Nat) (hp : p < 3) (w : S1024x1024.Idx → EReal)
    (hw : ([⟨S1024x1024, m ((c : Thread nD τ).loc main_arg1)⟩, ⟨S1024x1024, m ((c : Thread nD τ).loc main_arg2)⟩,
        ⟨S1024x1024, m ((c : Thread nD τ).loc main_arg3)⟩] : List ((s : Shape) × (s.Idx → EReal)))[p] = ⟨S1024x1024, w⟩)
    (j k : Fin 1024) (row : Fin 3072) (hrow : 1024 * p + j.val = row.val) :
    (E1 m c main_v1 : S3072x1024.Idx → EReal) (ix2 row k) = w (ix2 j k) := by
  rw [v1_eq]
  refine concatenate_apply_piece 0 _ _ (ix2 row k) p (by simpa using hp) S1024x1024 w hw rfl (1024 * p) ?_ (ix2 j k) ?_ ?_
  · match p, hp with
    | 0, _ => rfl
    | 1, _ => rfl
    | 2, _ => rfl
  · intro b hb
    match b with
    | ⟨0, _⟩ => exact absurd rfl hb
    | ⟨1, _⟩ => rfl
  · exact hrow

end Cert.KernelIdeal.HostRead

end
-- ==== Proof.KernelValue.lean ====
import proofs.«108809_j59742995087482_2_alg».proof.Proof.Frame
import proofs.«108809_j59742995087482_2_alg».proof.Proof.LinValue0
import proofs.«108809_j59742995087482_2_alg».proof.Proof.LinValue2
import proofs.«108809_j59742995087482_2_alg».proof.Proof.HostRead
import proofs.«108809_j59742995087482_2_alg».proof.Proof.Spec

/-!
# The kernel program's result as the attention layer of its arguments

The last call leaves rows of the attended values against rows of the output weights; the attended values are what the
attention call leaves from the array of queries, keys and values; that array is what the first call leaves: rows of the
input against rows of the stacked weights, whose three row ranges are the three weight arrays.  Reading the queries, keys
and values off their column ranges turns the stacked projection into the three separate projections, and the chain
into the layer of `Spec.lean`.
-/

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Hand

/-- What the attention call leaves in its output array, at any entry contents: the heads side by side, of the three
    column ranges of the array it reads. -/
def AttnFinal : Prop :=
  ∀ (V : (c : Dev nD) → (b : Ref sig .tc) → Buf (Elt Ideal) ((c : Thread nD τ).loc b)) (c : Dev nD),
    (dat1 V c).arrAt 3 cfg1.N
      = fun i => Cert.Spec.heads (Cert.Spec.qOf (V c main_v3)) (Cert.Spec.kOf (V c main_v3)) (Cert.Spec.vOf (V c main_v3)) (i 0) (i 1)

variable (m : (ℓ : Loc nD τ sig) → Buf (Elt Ideal) ℓ)

/-- The array of queries, keys and values: rows of the input against rows of the stacked weights. -/
theorem v3_eq (c : Dev nD) : @Eq (S2048x3072.Idx → EReal) (E2 m c main_v3) (LinValue0.G (E1 m) c) :=
  (W2_self m c).trans (LinValue0.final (E1 m) c)

/-- Column `1024 p + j` of that array is the input projected by row `j` of weight array `p`. -/
theorem range_eq (c : Dev nD) (p : Nat) (hp : p < 3) (w : S1024x1024.Idx → EReal)
    (hw : ([⟨S1024x1024, m ((c : Thread nD τ).loc main_arg1)⟩, ⟨S1024x1024, m ((c : Thread nD τ).loc main_arg2)⟩,
        ⟨S1024x1024, m ((c : Thread nD τ).loc main_arg3)⟩] : List ((s : Shape) × (s.Idx → EReal)))[p] = ⟨S1024x1024, w⟩)
    (s : Fin 2048) (j : Fin 1024) (col : Fin 3072) (hcol : 1024 * p + j.val = col.val) :
    @Eq EReal ((E2 m c main_v3 : S2048x3072.Idx → EReal) (ix2 s col))
      (Cert.Spec.proj (Cert.Spec.arr2 (m ((c : Thread nD τ).loc main_arg0))) (Cert.Spec.arr2 w) s j) := by
  rw [v3_eq]
  show @Eq EReal (LinValue0.G (E1 m) c (ix2 s col)) _
  unfold LinValue0.G Cert.Spec.proj Cert.Spec.arr2
  refine Finset.sum_congr rfl fun k _ => ?_
  exact congrArg₂ (fun a b : EReal => a * b) (congrFun (HostRead.arg0_eq m c) (ix2 s k))
    (HostRead.stacked_row m c p hp w hw j k col hcol)

theorem q_eq (c : Dev nD) : Cert.Spec.qOf (E2 m c main_v3)
    = Cert.Spec.proj (Cert.Spec.arr2 (m ((c : Thread nD τ).loc main_arg0))) (Cert.Spec.arr2 (m ((c : Thread nD τ).loc main_arg1))) :=
  funext fun s => funext fun j => range_eq m c 0 (by decide) _ rfl s j ⟨j.val, by omega⟩ (by simp)
theorem k_eq (c : Dev nD) : Cert.Spec.kOf (E2 m c main_v3)
    = Cert.Spec.proj (Cert.Spec.arr2 (m ((c : Thread nD τ).loc main_arg0))) (Cert.Spec.arr2 (m ((c : Thread nD τ).loc main_arg2))) :=
  funext fun s => funext fun j => range_eq m c 1 (by decide) _ rfl s j ⟨1024 + j.val, by omega⟩ (by simp)
theorem v_eq (c : Dev nD) : Cert.Spec.vOf (E2 m c main_v3)
    = Cert.Spec.proj (Cert.Spec.arr2 (m ((c : Thread nD τ).loc main_arg0))) (Cert.Spec.arr2 (m ((c : Thread nD τ).loc main_arg3))) :=
  funext fun s => funext fun j => range_eq m c 2 (by decide) _ rfl s j ⟨2048 + j.val, by omega⟩ (by simp)

/-- The attended values. -/
theorem v4_eq (hA : AttnFinal) (c : Dev nD) : @Eq (S2048x1024.Idx → EReal) (E3 m c main_v4)
    (fun i => Cert.Spec.heads (Cert.Spec.qOf (E2 m c main_v3)) (Cert.Spec.kOf (E2 m c main_v3)) (Cert.Spec.vOf (E2 m c main_v3)) (i 0) (i 1)) :=
  (W3_self m c).trans (hA (E2 m) c)

/-- The rounded output weights, unchanged by the first two calls. -/
theorem wo_eq (c : Dev nD) : @Eq (S1024x1024.Idx → EReal) (E3 m c main_v2) (m ((c : Thread nD τ).loc main_arg4)) :=
  (W3_ne m c main_v2 (by decide)).trans ((W2_ne m c main_v2 (by decide)).trans (HostRead.v2_eq m c))

/-- THE RESULT ARRAY after the run is the layer of the argument arrays. -/
theorem result_eq (hA : AttnFinal) (c : Dev nD) :
    (dat2 (E3 m) c).arrAt 2 cfg2.N
      = fun i => Cert.Spec.out (Cert.Spec.arr2 (m ((c : Thread nD τ).loc main_arg0))) (Cert.Spec.arr2 (m ((c : Thread nD τ).loc main_arg1)))
          (Cert.Spec.arr2 (m ((c : Thread nD τ).loc main_arg2))) (Cert.Spec.arr2 (m ((c : Thread nD τ).loc main_arg3)))
          (Cert.Spec.arr2 (m ((c : Thread nD τ).loc main_arg4))) (i 0) (i 1) := by
  rw [LinValue2.final]
  funext i
  unfold LinValue2.G Cert.Spec.out
  rw [← q_eq m c, ← k_eq m c, ← v_eq m c]
  refine congrArg₂ (fun (a : Fin 2048 → Fin 1024 → EReal) (b : Fin 1024 → Fin 1024 → EReal) => Cert.Spec.proj a b (i 0) (i 1)) ?_ ?_
  · show Cert.Spec.arr2 (E3 m c main_v4 : S2048x1024.Idx → EReal) = _
    rw [v4_eq m hA c]
    rfl
  · show Cert.Spec.arr2 (E3 m c main_v2 : S1024x1024.Idx → EReal) = _
    rw [wo_eq m c]

end Cert.KernelIdeal.KernelValue

end
-- ==== Proof.AttnBlocks.lean ====
import proofs.«108809_j59742995087482_2_alg».proof.Proof.Region1
import proofs.«108809_j59742995087482_2_alg».proof.Proof.Spec
import Idealize.ShloMosaic.Lib.Pipeline.Value
import Idealize.ShloMosaic.Lib.ValueIdx

/-!
# What the attention call leaves in its output array

The grid has a point per (head pair, query tile): 8 × 4.  At a point the body is handed the tile's 512 rows of the
pair's 128 query columns, all 2048 rows of the pair's 128 key columns and of its 128 value columns — three blocks of
one `[2048, 3072]` array — and stores a `[512, 128]` block: for each of the pair's two heads, the tile's rows
attended over all positions.  The blocks tile the `[2048, 1024]` output array, so it ends holding the heads side by
side.  The body's arithmetic read at an index is taken as a hypothesis here (`PayApply`) and supplied by its own file.
-/

set_option maxRecDepth 16384

noncomputable section

namespace Cert.KernelIdeal.AttnBlocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- The body's arithmetic at lane `l` of row `r`, for blocks that are the tile `si` / pair `hp` pieces of three
    arrays `Q`, `K`, `V`: the heads side by side at row `512 si + r`, column `128 hp + l`. -/
def PayApply : Prop :=
  ∀ (Q K V : Fin 2048 → Fin 1024 → EReal) (si : Fin 4) (hp : Fin 8)
    (x0 : Vec Ideal S512x128 .f32) (x1 x2 : Vec Ideal S2048x128 .f32)
    (h0 : ∀ (r : Fin 512) (l : Fin 128), x0 (ix2 r l) = Q ⟨512 * si.val + r.val, by omega⟩ ⟨128 * hp.val + l.val, by omega⟩)
    (h1 : ∀ (t : Fin 2048) (l : Fin 128), x1 (ix2 t l) = K t ⟨128 * hp.val + l.val, by omega⟩)
    (h2 : ∀ (t : Fin 2048) (l : Fin 128), x2 (ix2 t l) = V t ⟨128 * hp.val + l.val, by omega⟩)
    (r : Fin 512) (l : Fin 128),
    k1_pay1 (F := Ideal) (k1_pay5 x0 x1 x2) (k1_pay6 x2) (k1_pay7 x0 x1) (k1_pay8 x0 x1) (ix2 r l)
      = Cert.Spec.heads Q K V ⟨512 * si.val + r.val, by omega⟩ ⟨128 * hp.val + l.val, by omega⟩

theorem hz : (![0, 0] : Fin 2 → Nat) = fun _ => 0 := funext fun a => by fin_cases a <;> rfl

variable (V : (c : Dev nD) → (b : Ref sig .tc) → Buf (Elt Ideal) ((c : Thread nD τ).loc b))

/-- The output array's final contents. -/
def G (c : Dev nD) : S2048x1024.Idx → EReal :=
  fun i => Cert.Spec.heads (Cert.Spec.qOf (V c main_v3)) (Cert.Spec.kOf (V c main_v3)) (Cert.Spec.vOf (V c main_v3)) (i 0) (i 1)

/-- The printed index maps over the grid: the query and output blocks sit at (tile, pair), the key block at column block
    `8 + pair`, the value block at `16 + pair`, both at row block 0. -/
theorem idx_facts : ∀ t : Fin cfg1.N, win1_3.index t (0 : Fin 2) < 4 ∧ win1_3.index t (1 : Fin 2) < 8
    ∧ win1_0.index t (0 : Fin 2) = win1_3.index t (0 : Fin 2) ∧ win1_0.index t (1 : Fin 2) = win1_3.index t (1 : Fin 2)
    ∧ win1_1.index t (0 : Fin 2) = 0 ∧ win1_1.index t (1 : Fin 2) = 8 + win1_3.index t (1 : Fin 2)
    ∧ win1_2.index t (0 : Fin 2) = 0 ∧ win1_2.index t (1 : Fin 2) = 16 + win1_3.index t (1 : Fin 2) :=
  (by decide +kernel : ∀ t : Fin grid1.N, _)

/-- Every (tile, pair) is some point's. -/
theorem idx_onto : ∀ (q0 : Fin 4) (q1 : Fin 8), ∃ t : Fin cfg1.N, win1_3.index t = ![q0.val, q1.val] :=
  (by decide +kernel : ∀ (q0 : Fin 4) (q1 : Fin 8), ∃ t : Fin grid1.N, win1_3.index t = ![q0.val, q1.val])

/-- What point `t` writes back is block `t` of `G`. -/
theorem flushed_eq (hpay : PayApply) (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S512x128) hz, View.ld_unit_zero (S := S2048x128) hz]
  obtain ⟨b0, b1, e00, e01, e10, e11, e20, e21⟩ := idx_facts t
  funext y
  obtain ⟨r, l, rfl⟩ : ∃ (r : Fin 512) (l : Fin 128), y = ix2 r l := ⟨y 0, y 1, eq_ix2 y⟩
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (k1_pay8 (iblk1 V c 0 t) (iblk1 V c 1 t)) (ix2 r l)
    = G V c (((cfg1.win 3).blk t).view.emb (ix2 r l))
  have hr : r.val < 512 := r.isLt
  have hl : l.val < 128 := l.isLt
  refine (hpay (Cert.Spec.qOf (V c main_v3)) (Cert.Spec.kOf (V c main_v3)) (Cert.Spec.vOf (V c main_v3))
    ⟨win1_3.index t (0 : Fin 2), b0⟩ ⟨win1_3.index t (1 : Fin 2), b1⟩ (iblk1 V c 0 t) (iblk1 V c 1 t) (iblk1 V c 2 t) ?_ ?_ ?_ r l).trans ?_
  · intro r' l'
    have hr' : r'.val < 512 := r'.isLt
    have hl' : l'.val < 128 := l'.isLt
    unfold Cert.Spec.qOf
    refine congrArg (V c main_v3) (funext fun a => Fin.ext ?_)
    match a with
    | ⟨0, _⟩ => show win1_0.index t (0 : Fin 2) * 512 + 1 * r'.val = 512 * win1_3.index t (0 : Fin 2) + r'.val; omega
    | ⟨1, _⟩ => show win1_0.index t (1 : Fin 2) * 128 + 1 * l'.val = 128 * win1_3.index t (1 : Fin 2) + l'.val; omega
  · intro t' l'
    have hl' : l'.val < 128 := l'.isLt
    unfold Cert.Spec.kOf
    refine congrArg (V c main_v3) (funext fun a => Fin.ext ?_)
    match a with
    | ⟨0, _⟩ => show win1_1.index t (0 : Fin 2) * 2048 + 1 * t'.val = t'.val; omega
    | ⟨1, _⟩ => show win1_1.index t (1 : Fin 2) * 128 + 1 * l'.val = 1024 + (128 * win1_3.index t (1 : Fin 2) + l'.val); omega
  · intro t' l'
    have hl' : l'.val < 128 := l'.isLt
    unfold Cert.Spec.vOf
    refine congrArg (V c main_v3) (funext fun a => Fin.ext ?_)
    match a with
    | ⟨0, _⟩ => show win1_2.index t (0 : Fin 2) * 2048 + 1 * t'.val = t'.val; omega
    | ⟨1, _⟩ => show win1_2.index t (1 : Fin 2) * 128 + 1 * l'.val = 2048 + (128 * win1_3.index t (1 : Fin 2) + l'.val); omega
  · unfold G
    refine congrArg₂ (Cert.Spec.heads (Cert.Spec.qOf (V c main_v3)) (Cert.Spec.kOf (V c main_v3)) (Cert.Spec.vOf (V c main_v3))) (Fin.ext ?_) (Fin.ext ?_)
    · show 512 * win1_3.index t (0 : Fin 2) + r.val = win1_3.index t (0 : Fin 2) * 512 + 1 * r.val; omega
    · show 128 * win1_3.index t (1 : Fin 2) + l.val = win1_3.index t (1 : Fin 2) * 128 + 1 * l.val; omega

/-- An index of the output array is in point `t`'s block iff each coordinate is in the block's range. -/
theorem mem_blk (t : Fin cfg1.N) (i : S2048x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v4).slice (win1_3.rect t)).set ↔ _
  rw [View.set_slice_whole, Rect.mem_set_unit]
  exact Iff.rfl

/-- The blocks tile the output array. -/
theorem cover (i : S2048x1024.Idx) : ∃ t : Fin cfg1.N, (cfg1.win 3).flush t = true ∧ i ∈ ((cfg1.win 3).blk t).view.set := by
  have hi0 : (i 0).val < 2048 := (i 0).isLt
  have hi1 : (i 1).val < 1024 := (i 1).isLt
  obtain ⟨t, ht⟩ := idx_onto ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- THE ARRAY after the call. -/
theorem final1 (hpay : PayApply) (c : Dev nD) : (dat1 V c).arrAt 3 cfg1.N = G V c :=
  (dat1 V c).arrAt_eq_of_cover 3 (G V c) (fun t _ => flushed_eq V hpay c t) (cover)

end Cert.KernelIdeal.AttnBlocks

end
-- ==== Proof.AttnRead.lean ====
import Idealize.ShloMosaic.Lib.ValueIdx
import Idealize.ShloMosaic.Lib.Pipeline.Value
import Idealize.ShloMosaic.PureOps.Ideal.Laws

/-!
# Rank-2 layout operations and row reductions read at a pair of coordinates

Each statement reads one operation of a rank-2 array at the index with row `r` and column `d`: a slice of
columns, a transpose, a vector turned into a one-column matrix, that column repeated along the rows, the sum
and the maximum of a row, and two blocks of equal width set side by side.
-/

noncomputable section

namespace Cert.KernelIdeal.AttnValue

open Idealize.ShloMosaic Idealize.ShloMosaic.ValueIdx
open scoped BigOperators

variable {α : Type}

/-- Columns `o, o+1, …` of a matrix: entry `(r, d)` of the slice is entry `(r, o + d)`. -/
theorem slice_cols_apply {a b b' : Nat} (o : Nat) (x : (⟨2, ![a, b]⟩ : Shape).Idx → α)
    (h : Shape.Slices ⟨2, ![a, b]⟩ ![0, o] ⟨2, ![a, b']⟩) (r : Fin a) (d : Fin b') (hd : o + d.val < b) :
    extractStridedSlice ⟨2, ![a, b']⟩ ![0, o] x h (ix2 r d) = x (ix2 r ⟨o + d.val, hd⟩) :=
  extractStridedSlice_apply ![0, o] x h (ix2 r d) (ix2 r ⟨o + d.val, hd⟩) fun ax =>
    match ax with
    | ⟨0, _⟩ => by show r.val = 0 + r.val; omega
    | ⟨1, _⟩ => rfl

/-- Entry `(p, q)` of the transpose is entry `(q, p)`. -/
theorem transpose2_apply {a b : Nat} (x : (⟨2, ![a, b]⟩ : Shape).Idx → α)
    (h : Shape.Transposes ⟨2, ![a, b]⟩ [1, 0] ⟨2, ![b, a]⟩) (p : Fin b) (q : Fin a) :
    transpose ⟨2, ![b, a]⟩ [1, 0] x h (ix2 p q) = x (ix2 q p) :=
  transpose_apply [1, 0] x h (ix2 p q) (ix2 q p) fun ax =>
    match ax with
    | ⟨0, _⟩ => rfl
    | ⟨1, _⟩ => rfl

/-- A vector as a one-column matrix: entry `(r, 0)` is entry `r`. -/
theorem column_apply {a : Nat} (v : (⟨1, ![a]⟩ : Shape).Idx → α) (h : Shape.ShapeCasts ⟨1, ![a]⟩ ⟨2, ![a, 1]⟩)
    (r : Fin a) (z : Fin 1) : shapeCast ⟨2, ![a, 1]⟩ v h (ix2 r z) = v (ix1 r) :=
  shapeCast_apply v h (ix2 r z) (ix1 r) (by
    rw [Shape.rowMajor_val_one, Shape.rowMajor_val_two]
    show r.val = r.val * 1 + z.val
    have := z.isLt
    omega)

/-- A one-column matrix repeated along the rows: entry `(r, t)` is entry `(r, 0)`. -/
theorem broadcast_column_apply {a b : Nat} (v : (⟨2, ![a, 1]⟩ : Shape).Idx → α)
    (h : Shape.Broadcasts ⟨2, ![a, 1]⟩ ⟨2, ![a, b]⟩) (r : Fin a) (t : Fin b) (z : Fin 1) :
    broadcastTo ⟨2, ![a, b]⟩ v h (ix2 r t) = v (ix2 r z) :=
  broadcastTo_apply v h (ix2 r t) (ix2 r z) fun ax =>
    match ax with
    | ⟨0, _⟩ => by
        show r.val = if a = 1 then 0 else r.val
        split
        · have := r.isLt; omega
        · rfl
    | ⟨1, _⟩ => by
        have hz : z.val = 0 := by have := z.isLt; omega
        show z.val = _
        rw [hz]; exact (if_pos rfl).symm

/-- The two steps together: a vector repeated along the rows reads, at `(r, t)`, its entry `r`. -/
theorem broadcast_rows_apply {a b : Nat} (v : (⟨1, ![a]⟩ : Shape).Idx → α) (hc : Shape.ShapeCasts ⟨1, ![a]⟩ ⟨2, ![a, 1]⟩)
    (hb : Shape.Broadcasts ⟨2, ![a, 1]⟩ ⟨2, ![a, b]⟩) (r : Fin a) (t : Fin b) :
    broadcastTo ⟨2, ![a, b]⟩ (shapeCast ⟨2, ![a, 1]⟩ v hc) hb (ix2 r t) = v (ix1 r) :=
  (broadcast_column_apply _ hb r t 0).trans (column_apply v hc r 0)

/-- The index of row `r`, column `k`, as the reduction over columns names it. -/
theorem lift_row {a b : Nat} (h : Shape.Reduces ⟨2, ![a, b]⟩ [1] ⟨1, ![a]⟩) (r : Fin a) (k : Fin b) :
    h.lift (ix1 r) k = ix2 r k :=
  funext fun c => Fin.ext (match c with | ⟨0, _⟩ => rfl | ⟨1, _⟩ => rfl)

/-- The sum over the columns, at row `r`. -/
theorem rowsum_apply {a b : Nat} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum over the columns, at row `r`, folded from the starting word's value. -/
theorem rowmax_apply {a b : Nat} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f)
      (funext fun k => congrArg src (lift_row h r k)))

/-- Two blocks of width `b` side by side: a column below `b` reads the left block. -/
theorem concat_cols_left {a b c : Nat} (x₁ x₂ : (⟨2, ![a, b]⟩ : Shape).Idx → α)
    (h : Shape.Concatenates [⟨2, ![a, b]⟩, ⟨2, ![a, b]⟩] ⟨2, ![a, c]⟩ 1) (r : Fin a) (l : Fin c) (hl : l.val < b) :
    concatenate ⟨2, ![a, c]⟩ 1 [⟨⟨2, ![a, b]⟩, x₁⟩, ⟨⟨2, ![a, b]⟩, x₂⟩] h (ix2 r l) = x₁ (ix2 r ⟨l.val, hl⟩) :=
  concatenate_pair_apply_left 1 x₁ x₂ h (ix2 r l) rfl (ix2 r ⟨l.val, hl⟩) fun ax =>
    match ax with
    | ⟨0, _⟩ => rfl
    | ⟨1, _⟩ => rfl

/-- A column from `b` on reads the right block, `b` columns back. -/
theorem concat_cols_right {a b c : Nat} (x₁ x₂ : (⟨2, ![a, b]⟩ : Shape).Idx → α)
    (h : Shape.Concatenates [⟨2, ![a, b]⟩, ⟨2, ![a, b]⟩] ⟨2, ![a, c]⟩ 1) (r : Fin a) (l : Fin c) (hl : b ≤ l.val)
    (hl' : l.val - b < b) :
    concatenate ⟨2, ![a, c]⟩ 1 [⟨⟨2, ![a, b]⟩, x₁⟩, ⟨⟨2, ![a, b]⟩, x₂⟩] h (ix2 r l) = x₂ (ix2 r ⟨l.val - b, hl'⟩) :=
  concatenate_pair_apply_right 1 x₁ x₂ h (ix2 r l) rfl rfl (ix2 r ⟨l.val - b, hl'⟩)
    (fun ax hne => match ax, hne with
      | ⟨0, _⟩, _ => rfl
      | ⟨1, _⟩, hne => absurd rfl hne)
    (by show (l.val - b) + b = l.val; omega)

end Cert.KernelIdeal.AttnValue

end
-- ==== Proof.AttnBody.lean ====
import proofs.«108809_j59742995087482_2_alg».proof.Proof.Gen.KernelIdeal.Skeleton
import proofs.«108809_j59742995087482_2_alg».proof.Proof.LibPlainDot
import proofs.«108809_j59742995087482_2_alg».proof.Proof.AttnRead
import proofs.«108809_j59742995087482_2_alg».proof.Proof.Spec

/-!
# The attention body's arithmetic, entry by entry

The body receives a block of 512 query rows and two blocks of 2048 key and value rows, each 128 lanes wide: two
heads of 64 lanes side by side.  For each head it forms the scaled scores of every query row against every key row,
subtracts the row's maximum, exponentiates, divides by the row's sum and multiplies by the values; the two results
are set side by side again.  This file reads that arithmetic at one entry: row `r`, lane `d` of head `g` of the
pair is one query row's attention (`rowAttn`) on the three blocks' lanes of that head.
-/

noncomputable section

namespace Cert.KernelIdeal.AttnValue

open Idealize.ShloMosaic Idealize.ShloMosaic.ValueIdx
open Cert.KernelIdeal Cert.KernelIdeal.Gen
open scoped BigOperators

/-! ## One query row against one head's keys and values -/

section Row
variable (q : Fin 64 → EReal) (k v : Fin 2048 → Fin 64 → EReal)

/-- The scaled score of the row against key row `t`. -/
def rowScore (t : Fin 2048) : EReal := (∑ e : Fin 64, q e * k t e) * Ideal.ofBits .f32 0x3E000000#32
/-- The largest score of the row. -/
def rowTop : EReal :=
  (Finset.univ : Finset (Fin 2048)).fold max (Ideal.ofBits .f32 0xFF800000#32) (fun t => rowScore q k t)
/-- The shifted exponentials and their sum. -/
def rowExp (t : Fin 2048) : EReal := Ideal.exp (rowScore q k t - rowTop q k)
def rowNorm : EReal := ∑ t : Fin 2048, rowExp q k t
/-- The row's output at feature `d`. -/
def rowAttn (d : Fin 64) : EReal := ∑ t : Fin 2048, Ideal.div (rowExp q k t) (rowNorm q k) * v t d

end Row

/-- Equal arguments give equal row attentions. -/
theorem rowAttn_congr {q q' : Fin 64 → EReal} {k k' v v' : Fin 2048 → Fin 64 → EReal} {d d' : Fin 64}
    (hq : q = q') (hk : k = k') (hv : v = v') (hd : d = d') : rowAttn q k v d = rowAttn q' k' v' d' := by
  subst hq hk hv hd; rfl

/-- A head of the specification at position `s` is that row's attention on the head's columns. -/
theorem attn_eq_rowAttn (Q K V : Fin 2048 → Fin 1024 → EReal) (s : Fin 2048) (h : Fin 16) (d : Fin 64) :
    Cert.Spec.attn Q K V s h d
      = rowAttn (fun e => Q s (Cert.Spec.col h e)) (fun t e => K t (Cert.Spec.col h e))
          (fun t e => V t (Cert.Spec.col h e)) d := rfl

/-! ## The two products read at an entry -/

/-- Queries times transposed keys. -/
theorem dot_qk_apply (lhs : FVec Ideal S512x64 .bf16) (rhs : FVec Ideal S64x2048 .bf16) (r : Fin 512) (t : Fin 2048) :
    matmul dot_S512x64_S64x2048_S512x2048_1_0_0_1_n_n none lhs rhs (constant S512x2048 .f32 0x00000000#32) (ix2 r t)
      = ∑ e : Fin 64, lhs (ix2 r e) * rhs (ix2 e t) :=
  Cert.Lib.PlainDot.matmul_zero_apply (a := 512) (c := 64) (b := 2048)
    dot_S512x64_S64x2048_S512x2048_1_0_0_1_n_n_wf none lhs rhs r t

/-- Weights times values. -/
theorem dot_pv_apply (lhs : FVec Ideal S512x2048 .bf16) (rhs : FVec Ideal S2048x64 .bf16) (r : Fin 512) (d : Fin 64) :
    matmul dot_S512x2048_S2048x64_S512x64_1_0_0_1_n_n none lhs rhs (constant S512x64 .f32 0x00000000#32) (ix2 r d)
      = ∑ t : Fin 2048, lhs (ix2 r t) * rhs (ix2 t d) :=
  Cert.Lib.PlainDot.matmul_zero_apply (a := 512) (c := 2048) (b := 64)
    dot_S512x2048_S2048x64_S512x64_1_0_0_1_n_n_wf none lhs rhs r d

theorem exp_apply {s : Shape} {φ : FTy} (x : FVec Ideal s φ) (i : s.Idx) : exp x i = Ideal.exp (x i) := rfl

/-! ## One head of the pair, as the body computes it from lane `o` on -/

section Head
variable (o : Nat) (hq : S512x128.Slices ![0, o] S512x64) (hk : S2048x128.Slices ![0, o] S2048x64)
  (hv : S2048x128.Slices ![0, o] S2048x64)
variable (x0 : Vec Ideal S512x128 .f32) (x1 x2 : Vec Ideal S2048x128 .f32)

/-- The scaled scores of the head whose lanes start at `o`. -/
def scores : FVec Ideal S512x2048 .f32 :=
  mulf (matmul dot_S512x64_S64x2048_S512x2048_1_0_0_1_n_n none
      (truncf .bf16 (extractStridedSlice S512x64 ![0, o] (k1_pay2 x0) hq) bitsLt_bf16_f32)
      (transpose S64x2048 [1, 0] (truncf .bf16 (extractStridedSlice S2048x64 ![0, o] (k1_pay3 x1) hk) bitsLt_bf16_f32)
        transposes_S2048x64_p1_0_S64x2048)
      (constant S512x2048 .f32 0x00000000#32))
    (broadcast S512x2048 (Scalar.ofBits .f32 0x3E000000#32))

/-- Each row's largest score. -/
def tops : FVec Ideal S512 .f32 :=
  multiReduction .maximumf [1] S512 (scores o hq hk x0 x1) 0xFF800000#32 reduces_S512x2048_S512 (.inl rfl) rfl

/-- The shifted exponentials. -/
def expo : FVec Ideal S512x2048 .f32 :=
  exp (subf (scores o hq hk x0 x1)
    (broadcastTo S512x2048 (shapeCast S512x1 (tops o hq hk x0 x1) shapeCasts_S512_S512x1) broadcasts_S512x1_S512x2048))

/-- Each row's sum of them. -/
def norms : FVec Ideal S512 .f32 :=
  multiReduction .add [1] S512 (expo o hq hk x0 x1) 0x00000000#32 reduces_S512x2048_S512 (.inl rfl) rfl

/-- The head's output. -/
def headOut : FVec Ideal S512x64 .f32 :=
  matmul dot_S512x2048_S2048x64_S512x64_1_0_0_1_n_n none
    (truncf .bf16 (divf (expo o hq hk x0 x1)
      (broadcastTo S512x2048 (shapeCast S512x1 (norms o hq hk x0 x1) shapeCasts_S512_S512x1) broadcasts_S512x1_S512x2048))
      bitsLt_bf16_f32)
    (truncf .bf16 (extractStridedSlice S2048x64 ![0, o] (k1_pay4 x2) hv) bitsLt_bf16_f32)
    (constant S512x64 .f32 0x00000000#32)

variable (ho : o + 64 ≤ 128)

/-- The head's lanes of a query row, and of the key or value rows. -/
abbrev qrow (r : Fin 512) : Fin 64 → EReal := fun e => x0 (ix2 r ⟨o + e.val, by omega⟩)
abbrev krows (x : Vec Ideal S2048x128 .f32) : Fin 2048 → Fin 64 → EReal := fun t e => x (ix2 t ⟨o + e.val, by omega⟩)

theorem scores_apply (r : Fin 512) (t : Fin 2048) :
    scores o hq hk x0 x1 (ix2 r t) = rowScore (qrow o x0 ho r) (krows o ho x1) t := by
  unfold scores rowScore
  rw [mulf_apply, broadcast_apply, dot_qk_apply]
  refine congrArg (· * _) (Finset.sum_congr rfl fun e _ => ?_)
  rw [truncf_apply, transpose2_apply, truncf_apply, slice_cols_apply o _ hq r e (by have := e.isLt; omega),
    slice_cols_apply o _ hk t e (by have := e.isLt; omega)]
  unfold k1_pay2 k1_pay3
  rw [shapeCast_self, shapeCast_self]

theorem tops_apply (r : Fin 512) :
    tops o hq hk x0 x1 (ix1 r) = rowTop (qrow o x0 ho r) (krows o ho x1) := by
  unfold tops rowTop
  refine (rowmax_apply _ _ reduces_S512x2048_S512 _ _ r).trans ?_
  exact congrArg (fun f => (Finset.univ : Finset (Fin 2048)).fold max (Ideal.ofBits .f32 0xFF800000#32) f)
    (funext fun t => scores_apply o hq hk x0 x1 ho r t)

theorem expo_apply (r : Fin 512) (t : Fin 2048) :
    expo o hq hk x0 x1 (ix2 r t) = rowExp (qrow o x0 ho r) (krows o ho x1) t := by
  unfold expo rowExp
  rw [exp_apply, subf_apply, broadcast_rows_apply, tops_apply o hq hk x0 x1 ho, scores_apply o hq hk x0 x1 ho]

theorem norms_apply (r : Fin 512) :
    norms o hq hk x0 x1 (ix1 r) = rowNorm (qrow o x0 ho r) (krows o ho x1) := by
  unfold norms rowNorm
  refine (rowsum_apply _ _ reduces_S512x2048_S512 _ _ r).trans ?_
  exact Finset.sum_congr rfl fun t _ => expo_apply o hq hk x0 x1 ho r t

theorem headOut_apply (r : Fin 512) (d : Fin 64) :
    headOut o hq hk hv x0 x1 x2 (ix2 r d) = rowAttn (qrow o x0 ho r) (krows o ho x1) (krows o ho x2) d := by
  unfold headOut rowAttn
  rw [dot_pv_apply]
  refine Finset.sum_congr rfl fun t _ => ?_
  rw [truncf_apply, divf_apply, broadcast_rows_apply, norms_apply o hq hk x0 x1 ho, expo_apply o hq hk x0 x1 ho,
    truncf_apply, slice_cols_apply o _ hv t d (by have := d.isLt; omega)]
  unfold k1_pay4
  rw [shapeCast_self]

end Head

/-! ## The stored block -/

section Payload
variable (x0 : Vec Ideal S512x128 .f32) (x1 x2 : Vec Ideal S2048x128 .f32)

/-- The stored block is the two heads' outputs side by side. -/
theorem payload_eq :
    k1_pay1 (k1_pay5 x0 x1 x2) (k1_pay6 x2) (k1_pay7 x0 x1) (k1_pay8 x0 x1)
      = concatenate S512x128 1
          [⟨S512x64, headOut 0 slices_S512x128_o0_0_S512x64 slices_S2048x128_o0_0_S2048x64
              slices_S2048x128_o0_0_S2048x64 x0 x1 x2⟩,
           ⟨S512x64, headOut 64 slices_S512x128_o0_64_S512x64 slices_S2048x128_o0_64_S2048x64
              slices_S2048x128_o0_64_S2048x64 x0 x1 x2⟩]
          concatenates_S512x64_S512x64_S512x128_d1 := rfl

/-- Lane `e` of head `g` of the pair. -/
def lane (g : Fin 2) (e : Fin 64) : Fin 128 := ⟨64 * g.val + e.val, by have := g.isLt; have := e.isLt; omega⟩

/-- THE STORED BLOCK AT AN ENTRY: row `r`, lane `d` of head `g`, is row `r`'s attention on head `g`'s lanes of the three
    blocks. -/
theorem payload_apply (r : Fin 512) (g : Fin 2) (d : Fin 64) :
    k1_pay1 (k1_pay5 x0 x1 x2) (k1_pay6 x2) (k1_pay7 x0 x1) (k1_pay8 x0 x1) (ix2 r (lane g d))
      = rowAttn (fun e => x0 (ix2 r (lane g e))) (fun t e => x1 (ix2 t (lane g e))) (fun t e => x2 (ix2 t (lane g e))) d := by
  rw [payload_eq]
  match g with
  | ⟨0, _⟩ =>
    have hl : (lane ⟨0, by omega⟩ d).val < 64 := by show 64 * 0 + d.val < 64; have := d.isLt; omega
    refine (concat_cols_left _ _ concatenates_S512x64_S512x64_S512x128_d1 r _ hl).trans ?_
    have hd : (⟨(lane ⟨0, by omega⟩ d).val, hl⟩ : Fin 64) = d := Fin.ext (by show 64 * 0 + d.val = d.val; omega)
    rw [hd, headOut_apply 0 _ _ _ x0 x1 x2 (by omega) r d]
    have hlane : ∀ e : Fin 64, (⟨0 + e.val, by have := e.isLt; omega⟩ : Fin 128) = lane ⟨0, by omega⟩ e :=
      fun e => Fin.ext (by show 0 + e.val = 64 * 0 + e.val; omega)
    exact rowAttn_congr (funext fun e => congrArg (fun c => x0 (ix2 r c)) (hlane e))
      (funext fun t => funext fun e => congrArg (fun c => x1 (ix2 t c)) (hlane e))
      (funext fun t => funext fun e => congrArg (fun c => x2 (ix2 t c)) (hlane e)) rfl
  | ⟨1, _⟩ =>
    have hl : 64 ≤ (lane ⟨1, by omega⟩ d).val := by show 64 ≤ 64 * 1 + d.val; omega
    have hl' : (lane ⟨1, by omega⟩ d).val - 64 < 64 := by show 64 * 1 + d.val - 64 < 64; have := d.isLt; omega
    refine (concat_cols_right _ _ concatenates_S512x64_S512x64_S512x128_d1 r _ hl hl').trans ?_
    have hd : (⟨(lane ⟨1, by omega⟩ d).val - 64, hl'⟩ : Fin 64) = d := Fin.ext (by show 64 * 1 + d.val - 64 = d.val; omega)
    rw [hd, headOut_apply 64 _ _ _ x0 x1 x2 (by omega) r d]
    have hlane : ∀ e : Fin 64, (⟨64 + e.val, by have := e.isLt; omega⟩ : Fin 128) = lane ⟨1, by omega⟩ e :=
      fun e => Fin.ext (by show 64 + e.val = 64 * 1 + e.val; omega)
    exact rowAttn_congr (funext fun e => congrArg (fun c => x0 (ix2 r c)) (hlane e))
      (funext fun t => funext fun e => congrArg (fun c => x1 (ix2 t c)) (hlane e))
      (funext fun t => funext fun e => congrArg (fun c => x2 (ix2 t c)) (hlane e)) rfl

end Payload

/-! ## The stored block against the specification -/

/-- THE STORED BLOCK IS THE SPECIFICATION'S BLOCK.  When the query block holds rows `512·si …` and columns `128·hp …` of
    `Q`, and the key and value blocks hold all rows and columns `128·hp …` of `K` and `V`, the stored block at
    `(r, l)` is the specification's heads at row `512·si + r`, column `128·hp + l`: that column belongs to head
    `2·hp + l / 64` at place `l % 64`, whose columns are lanes `64·(l / 64) …` of the blocks. -/
theorem attn_pay_apply (Q K V : Fin 2048 → Fin 1024 → EReal) (si : Fin 4) (hp : Fin 8)
    (x0 : Vec Ideal Cert.KernelIdeal.S512x128 .f32) (x1 x2 : Vec Ideal Cert.KernelIdeal.S2048x128 .f32)
    (h0 : ∀ (r : Fin 512) (l : Fin 128), x0 (ix2 r l) = Q ⟨512 * si.val + r.val, by omega⟩ ⟨128 * hp.val + l.val, by omega⟩)
    (h1 : ∀ (t : Fin 2048) (l : Fin 128), x1 (ix2 t l) = K t ⟨128 * hp.val + l.val, by omega⟩)
    (h2 : ∀ (t : Fin 2048) (l : Fin 128), x2 (ix2 t l) = V t ⟨128 * hp.val + l.val, by omega⟩)
    (r : Fin 512) (l : Fin 128) :
    Cert.KernelIdeal.Gen.k1_pay1 (F := Ideal) (Cert.KernelIdeal.Gen.k1_pay5 x0 x1 x2) (Cert.KernelIdeal.Gen.k1_pay6 x2) (Cert.KernelIdeal.Gen.k1_pay7 x0 x1) (Cert.KernelIdeal.Gen.k1_pay8 x0 x1) (ix2 r l)
      = Cert.Spec.heads Q K V ⟨512 * si.val + r.val, by omega⟩ ⟨128 * hp.val + l.val, by omega⟩ := by
  obtain ⟨g, d, rfl⟩ : ∃ (g : Fin 2) (d : Fin 64), l = lane g d :=
    ⟨⟨l.val / 64, by have := l.isLt; omega⟩, ⟨l.val % 64, Nat.mod_lt _ (by norm_num)⟩,
      Fin.ext (by show l.val = 64 * (l.val / 64) + l.val % 64; omega)⟩
  have hg := g.isLt
  have hd := d.isLt
  have hhp := hp.isLt
  rw [payload_apply]
  unfold Cert.Spec.heads
  rw [attn_eq_rowAttn]
  have e_col : ∀ e : Fin 64,
      (⟨128 * hp.val + (lane g e).val, by have := (lane g e).isLt; omega⟩ : Fin 1024)
        = Cert.Spec.col (Cert.Spec.hd ⟨128 * hp.val + (lane g d).val, by have := (lane g d).isLt; omega⟩) e :=
    fun e => Fin.ext (by
      show 128 * hp.val + (64 * g.val + e.val) = 64 * ((128 * hp.val + (64 * g.val + d.val)) / 64) + e.val
      have := e.isLt
      omega)
  refine rowAttn_congr (funext fun e => ?_) (funext fun t => funext fun e => ?_) (funext fun t => funext fun e => ?_)
    (Fin.ext ?_)
  · exact (h0 r (lane g e)).trans (congrArg (Q _) (e_col e))
  · exact (h1 t (lane g e)).trans (congrArg (K t) (e_col e))
  · exact (h2 t (lane g e)).trans (congrArg (V t) (e_col e))
  · show d.val = (128 * hp.val + (64 * g.val + d.val)) % 64
    omega

end Cert.KernelIdeal.AttnValue

end
-- ==== Proof.RefValue.lean ====
import proofs.«108809_j59742995087482_2_alg».proof.Proof.Gen.ReferenceIdeal.Read
import proofs.«108809_j59742995087482_2_alg».proof.Proof.Spec

/-!
# The reference program's result is the attention layer of `Cert.Spec`

The reference computes, in order: three projections `x · wᵀ` of the `[2048, 1024]` argument, each re-laid as
`[16, 2048, 64]` (head, position, feature); the batched dot products of query and key slices, times one eighth; each
row's maximum (a fold of `max` from the word of minus infinity, then one more `max` with that word); the exponentials of
the shifted scores, their row sums (from the zero word) and the quotients; the weighted sums of the value slices; the
heads laid side by side again as `[2048, 1024]`; and the last projection by the output weights.

Every stage is read at an index built from its coordinates (`ix2 s j`, `ix3 h s e`) and identified with the
corresponding function of `Cert.Spec`.  The only arithmetic on indices is that element `(s, h, e)` of the
`[2048, 16, 64]` view of a flat array is its element `(s, 64h + e)`, and conversely that flat column `j` is feature
`j % 64` of head `j / 64`.  The order of the factors in every sum is the specification's, so no law of the extended
reals is used beyond `0 + a = a` and `max b m = m` when `b ≤ m`.
-/

noncomputable section

namespace Cert.RefSide

open Cert.ReferenceIdeal Cert.ReferenceIdeal.Gen Cert.ReferenceIdeal.Read Idealize.ShloMosaic Idealize.ShloMosaic.ValueIdx Cert.Spec

/-- A [2048, 1024] array of extended reals, and a [1024, 1024] one. -/
abbrev A2 := (⟨S2048x1024, .f32⟩ : BufTy).Contents (Elt Ideal)
abbrev W2 := (⟨S1024x1024, .f32⟩ : BufTy).Contents (Elt Ideal)

/-! ## A projection: rows of the left array against rows of the weights -/

theorem lidx1_ix2 (s : Fin 2048) (j k : Fin 1024) : lidx_main_v1 (ix2 s j) k = ix2 s k :=
  funext fun a => Fin.ext (by match a with | ⟨0, _⟩ => rfl | ⟨1, _⟩ => rfl)

theorem ridx1_ix2 (s : Fin 2048) (j k : Fin 1024) : ridx_main_v1 (ix2 s j) k = ix2 k j :=
  funext fun a => Fin.ext (by match a with | ⟨0, _⟩ => rfl | ⟨1, _⟩ => rfl)

theorem idx0_ix2 (k j : Fin 1024) : idx_main_v0 (ix2 k j) = ix2 j k :=
  funext fun a => Fin.ext (by match a with | ⟨0, _⟩ => rfl | ⟨1, _⟩ => rfl)

/-- The first dot_general at row `s`, column `j`: the sum over `k` of `x[s,k] · w[j,k]`. -/
theorem v1_ix2 (x : A2) (w : W2) (s : Fin 2048) (j : Fin 1024) :
    val_main_v1 (F := Ideal) x w (ix2 s j) = proj (arr2 x) (arr2 w) s j := by
  rw [val_main_v1_apply]
  refine Finset.sum_congr rfl fun k _ => ?_
  rw [val_main_v0_apply, lidx1_ix2, ridx1_ix2, idx0_ix2]
  rfl

/-! ## The head layout `[16, 2048, 64]` of a projection -/

theorem idx3_ix3 (h : Fin 16) (s : Fin 2048) (e : Fin 64) : idx_main_v3 (ix3 h s e) = ix3 s h e :=
  funext fun a => Fin.ext (by match a with | ⟨0, _⟩ => rfl | ⟨1, _⟩ => rfl | ⟨2, _⟩ => rfl)

/-- Element `(s, h, e)` of the `[2048, 16, 64]` view is element `(s, 64h + e)` of the flat array. -/
theorem idx2_ix3 (s : Fin 2048) (h : Fin 16) (e : Fin 64) : idx_main_v2 (ix3 s h e) = ix2 s (col h e) :=
  funext fun a => Fin.ext (by
    have hs := s.isLt; have hh := h.isLt; have he := e.isLt
    match a with
    | ⟨0, _⟩ => show ((s.val * 16 + h.val) * 64 + e.val) / 1024 = s.val; omega
    | ⟨1, _⟩ => show ((s.val * 16 + h.val) * 64 + e.val) % 1024 = 64 * h.val + e.val; omega)

/-- A projection in the head layout: head `h`, position `s`, feature `e` is the flat projection at column `64h + e`. -/
theorem v3_ix3 (x : A2) (w : W2) (h : Fin 16) (s : Fin 2048) (e : Fin 64) :
    val_main_v3 (F := Ideal) x w (ix3 h s e) = proj (arr2 x) (arr2 w) s (col h e) := by
  rw [val_main_v3_apply, idx3_ix3, val_main_v2_apply, idx2_ix3, v1_ix2]

/-- The key and value projections are the same operations on other weights. -/
theorem v7_eq (x : A2) (w : W2) : val_main_v7 (F := Ideal) x w = val_main_v3 (F := Ideal) x w := rfl
theorem v11_eq (x : A2) (w : W2) : val_main_v11 (F := Ideal) x w = val_main_v3 (F := Ideal) x w := rfl

/-! ## Scores -/

section
variable (x0 : A2) (x1 x2 x3 : W2)

/-- The queries, keys and values of the layer, flat. -/
abbrev Qf : Fin 2048 → Fin 1024 → EReal := proj (arr2 x0) (arr2 x1)
abbrev Kf : Fin 2048 → Fin 1024 → EReal := proj (arr2 x0) (arr2 x2)
abbrev Vf : Fin 2048 → Fin 1024 → EReal := proj (arr2 x0) (arr2 x3)

theorem lidx12_ix3 (h : Fin 16) (s t : Fin 2048) (k : Fin 64) : lidx_main_v12 (ix3 h s t) k = ix3 h s k :=
  funext fun a => Fin.ext (by match a with | ⟨0, _⟩ => rfl | ⟨1, _⟩ => rfl | ⟨2, _⟩ => rfl)

theorem ridx12_ix3 (h : Fin 16) (s t : Fin 2048) (k : Fin 64) : ridx_main_v12 (ix3 h s t) k = ix3 h t k :=
  funext fun a => Fin.ext (by match a with | ⟨0, _⟩ => rfl | ⟨1, _⟩ => rfl | ⟨2, _⟩ => rfl)

/-- The scaled scores: the head's dot product of a query row and a key row, times one eighth. -/
theorem v14_ix3 (h : Fin 16) (s t : Fin 2048) :
    val_main_v14 (F := Ideal) x0 x1 x2 (ix3 h s t) = score (Qf x0 x1) (Kf x0 x2) h s t := by
  rw [val_main_v14_apply, val_main_v13_apply, val_main_cst_apply, val_main_v12_apply]
  refine congrArg (· * Ideal.ofBits .f32 0x3E000000#32) (Finset.sum_congr rfl fun k _ => ?_)
  rw [lidx12_ix3, ridx12_ix3, v7_eq, v3_ix3, v3_ix3]

end

/-! ## A row's maximum -/

/-- The shape fact that names the index a reduction over the last axis reads. -/
theorem red2 : S16x2048x2048.Reduces [2] S16x2048 := by decide

/-- The reduced index `(h, s)` with `k` put back on the last axis is `(h, s, k)`. -/
theorem lift_ix2 (h : Fin 16) (s : Fin 2048) (k : Fin (S16x2048x2048.size 2)) :
    red2.lift (ix2 h s) k = ix3 h s (⟨k.val, k.isLt⟩ : Fin 2048) := by
  funext c; apply Fin.ext
  fin_cases c <;> rfl

/-- A maximum-reduction over the last axis, at `(h, s)`: the fold of `max` from the initial word over the row. -/
theorem reduceMax_ix2 (y : S16x2048x2048.Idx → Ideal .f32) (h : Fin 16) (s : Fin 2048) :
    Host.reduce (FloatOps.maximumf (F := Ideal) (φ := .f32)) y (val_main_cst_0 (F := Ideal))
        reducesTo_S16x2048x2048_S16x2048_d2 h_S_ (ix2 h s)
      = (Finset.univ : Finset (Fin 2048)).fold max (Ideal.ofBits .f32 0xFF800000#32) (fun t => y (ix3 h s t)) := by
  have e := Host.reduce_eq_fold_single (α := Ideal .f32) (s := S16x2048x2048) (t := S16x2048) (a := 2) (u := S_)
    (FloatOps.maximumf (F := Ideal) (φ := .f32)) y (val_main_cst_0 (F := Ideal))
    reducesTo_S16x2048x2048_S16x2048_d2 red2 h_S_ (ix2 h s)
  refine e.trans ?_
  have hf : (y ∘ red2.lift (ix2 h s)) = fun t : Fin 2048 => y (ix3 h s t) :=
    funext fun k => congrArg y (lift_ix2 h s k)
  exact congrArg (fun f => Finset.fold max (Ideal.ofBits .f32 0xFF800000#32) f (Finset.univ : Finset (Fin 2048))) hf

section
variable (x0 : A2) (x1 x2 x3 : W2)

theorem v15_ix2 (h : Fin 16) (s : Fin 2048) :
    val_main_v15 (F := Ideal) x0 x1 x2 (ix2 h s)
      = (Finset.univ : Finset (Fin 2048)).fold max (Ideal.ofBits .f32 0xFF800000#32)
          (fun t => val_main_v14 (F := Ideal) x0 x1 x2 (ix3 h s t)) := by
  unfold val_main_v15
  exact reduceMax_ix2 _ h s

theorem idx18_ix3 (h : Fin 16) (s : Fin 2048) (z : Fin 1) : idx_main_v18 (ix3 h s z) = ix2 h s :=
  funext fun a => Fin.ext (by match a with | ⟨0, _⟩ => rfl | ⟨1, _⟩ => rfl)

theorem idx19_ix3 (h : Fin 16) (s t : Fin 2048) : idx_main_v19 (ix3 h s t) = ix3 h s (0 : Fin 1) :=
  funext fun a => Fin.ext (by match a with | ⟨0, _⟩ => rfl | ⟨1, _⟩ => rfl | ⟨2, _⟩ => rfl)

/-- The maximum with the initial word again changes nothing: a fold of `max` from `b` is at least `b`. -/
theorem v17_ix2 (h : Fin 16) (s : Fin 2048) :
    val_main_v17 (F := Ideal) x0 x1 x2 (ix2 h s) = rowMax (Qf x0 x1) (Kf x0 x2) h s := by
  rw [val_main_v17_apply, val_main_v16_apply, val_main_cst_1_apply, v15_ix2]
  have hf : (fun t => val_main_v14 (F := Ideal) x0 x1 x2 (ix3 h s t)) = fun t => score (Qf x0 x1) (Kf x0 x2) h s t :=
    funext fun t => v14_ix3 x0 x1 x2 h s t
  rw [hf]
  exact max_eq_right ((Finset.le_fold_max _).mpr (Or.inl le_rfl))

/-- The row maximum broadcast along the key axis. -/
theorem v19_ix3 (h : Fin 16) (s t : Fin 2048) :
    val_main_v19 (F := Ideal) x0 x1 x2 (ix3 h s t) = rowMax (Qf x0 x1) (Kf x0 x2) h s := by
  rw [val_main_v19_apply, idx19_ix3, val_main_v18_apply, idx18_ix3, v17_ix2]

end

/-! ## Exponentials, their row sums, the weights and the weighted sum of values -/

section
variable (x0 : A2) (x1 x2 x3 : W2)

/-- The shifted exponentials. -/
theorem v21_ix3 (h : Fin 16) (s t : Fin 2048) :
    val_main_v21 (F := Ideal) x0 x1 x2 (ix3 h s t) = expo (Qf x0 x1) (Kf x0 x2) h s t := by
  rw [val_main_v21_apply, val_main_v20_apply, v14_ix3, v19_ix3]
  rfl

theorem idx22_ix2 (h : Fin 16) (s k : Fin 2048) : idx_main_v22 (ix2 h s) k = ix3 h s k :=
  funext fun a => Fin.ext (by match a with | ⟨0, _⟩ => rfl | ⟨1, _⟩ => rfl | ⟨2, _⟩ => rfl)

/-- The row sums: the initial word is zero. -/
theorem v22_ix2 (h : Fin 16) (s : Fin 2048) :
    val_main_v22 (F := Ideal) x0 x1 x2 (ix2 h s) = rowSum (Qf x0 x1) (Kf x0 x2) h s := by
  rw [val_main_v22_apply, val_main_cst_2_apply]
  refine (congrArg (· + _) Ideal.ofBits_zero_f32).trans ((zero_add _).trans ?_)
  refine Finset.sum_congr rfl fun k _ => ?_
  rw [idx22_ix2, v21_ix3]

theorem idx23_ix3 (h : Fin 16) (s : Fin 2048) (z : Fin 1) : idx_main_v23 (ix3 h s z) = ix2 h s :=
  funext fun a => Fin.ext (by match a with | ⟨0, _⟩ => rfl | ⟨1, _⟩ => rfl)

theorem idx24_ix3 (h : Fin 16) (s t : Fin 2048) : idx_main_v24 (ix3 h s t) = ix3 h s (0 : Fin 1) :=
  funext fun a => Fin.ext (by match a with | ⟨0, _⟩ => rfl | ⟨1, _⟩ => rfl | ⟨2, _⟩ => rfl)

/-- The weights: each exponential over its row's sum. -/
theorem v25_ix3 (h : Fin 16) (s t : Fin 2048) :
    val_main_v25 (F := Ideal) x0 x1 x2 (ix3 h s t)
      = Ideal.div (expo (Qf x0 x1) (Kf x0 x2) h s t) (rowSum (Qf x0 x1) (Kf x0 x2) h s) := by
  rw [val_main_v25_apply, v21_ix3, val_main_v24_apply, idx24_ix3, val_main_v23_apply, idx23_ix3, v22_ix2]
  rfl

theorem lidx26_ix3 (h : Fin 16) (s : Fin 2048) (d : Fin 64) (k : Fin 2048) : lidx_main_v26 (ix3 h s d) k = ix3 h s k :=
  funext fun a => Fin.ext (by match a with | ⟨0, _⟩ => rfl | ⟨1, _⟩ => rfl | ⟨2, _⟩ => rfl)

theorem ridx26_ix3 (h : Fin 16) (s : Fin 2048) (d : Fin 64) (k : Fin 2048) : ridx_main_v26 (ix3 h s d) k = ix3 h k d :=
  funext fun a => Fin.ext (by match a with | ⟨0, _⟩ => rfl | ⟨1, _⟩ => rfl | ⟨2, _⟩ => rfl)

/-- A head's output: the weights against the head's value slices. -/
theorem v26_ix3 (h : Fin 16) (s : Fin 2048) (d : Fin 64) :
    val_main_v26 (F := Ideal) x0 x1 x2 x3 (ix3 h s d) = attn (Qf x0 x1) (Kf x0 x2) (Vf x0 x3) s h d := by
  rw [val_main_v26_apply]
  refine Finset.sum_congr rfl fun k _ => ?_
  rw [lidx26_ix3, ridx26_ix3, v25_ix3, v11_eq, v3_ix3]

theorem idx27_ix3 (s : Fin 2048) (h : Fin 16) (d : Fin 64) : idx_main_v27 (ix3 s h d) = ix3 h s d :=
  funext fun a => Fin.ext (by match a with | ⟨0, _⟩ => rfl | ⟨1, _⟩ => rfl | ⟨2, _⟩ => rfl)

/-- Column `j` of the flat `[2048, 1024]` layout is feature `j % 64` of head `j / 64`. -/
theorem idx28_ix2 (s : Fin 2048) (j : Fin 1024) : idx_main_v28 (ix2 s j) = ix3 s (hd j) (ld j) :=
  funext fun a => Fin.ext (by
    have hs := s.isLt; have hj := j.isLt
    match a with
    | ⟨0, _⟩ => show (s.val * 1024 + j.val) / 1024 = s.val; omega
    | ⟨1, _⟩ => show (s.val * 1024 + j.val) / 64 % 16 = j.val / 64; omega
    | ⟨2, _⟩ => show (s.val * 1024 + j.val) % 64 = j.val % 64; omega)

/-- The heads side by side, flat. -/
theorem v28_ix2 (s : Fin 2048) (j : Fin 1024) :
    val_main_v28 (F := Ideal) x0 x1 x2 x3 (ix2 s j) = heads (Qf x0 x1) (Kf x0 x2) (Vf x0 x3) s j := by
  rw [val_main_v28_apply, idx28_ix2, val_main_v27_apply, idx27_ix3, v26_ix3]
  rfl

end

/-! ## The output projection and the whole layer -/

/-- The last dot_general is the first one's operation on the heads and the output weights. -/
theorem v30_eq (x0 : A2) (x1 x2 x3 x4 : W2) :
    val_main_v30 (F := Ideal) x0 x1 x2 x3 x4 = val_main_v1 (F := Ideal) (val_main_v28 (F := Ideal) x0 x1 x2 x3) x4 := rfl

theorem v30_ix2 (x0 : A2) (x1 x2 x3 x4 : W2) (s : Fin 2048) (n : Fin 1024) :
    val_main_v30 (F := Ideal) x0 x1 x2 x3 x4 (ix2 s n)
      = out (arr2 x0) (arr2 x1) (arr2 x2) (arr2 x3) (arr2 x4) s n := by
  rw [v30_eq, v1_ix2]
  have hh : arr2 (val_main_v28 (F := Ideal) x0 x1 x2 x3) = heads (Qf x0 x1) (Kf x0 x2) (Vf x0 x3) :=
    funext fun s' => funext fun j => v28_ix2 x0 x1 x2 x3 s' j
  rw [hh]
  rfl

/-- The reference program's result, as a function of its index, is the layer of `Cert.Spec` at the index's row and column. -/
theorem result_eq (x0 : (⟨Cert.ReferenceIdeal.S2048x1024, .f32⟩ : BufTy).Contents (Elt Ideal)) (x1 x2 x3 x4 : (⟨Cert.ReferenceIdeal.S1024x1024, .f32⟩ : BufTy).Contents (Elt Ideal)) :
    Cert.ReferenceIdeal.Read.val_main_v30 (F := Ideal) x0 x1 x2 x3 x4
      = fun i => Cert.Spec.out (Cert.Spec.arr2 x0) (Cert.Spec.arr2 x1) (Cert.Spec.arr2 x2) (Cert.Spec.arr2 x3) (Cert.Spec.arr2 x4) (i 0) (i 1) := by
  funext i
  obtain ⟨s, n, rfl⟩ : ∃ (s : Fin 2048) (n : Fin 1024), i = ix2 s n := ⟨i 0, i 1, eq_ix2 i⟩
  exact v30_ix2 x0 x1 x2 x3 x4 s n

end Cert.RefSide

end
-- ==== Proof.lean ====
/-
  Fused multi-head attention as three pallas calls against its plain jnp reference, over the extended reals.

  The kernel program stacks the query, key and value weights, projects the input once against the stack, runs
  softmax attention two heads at a time straight off the projection's flat [2048, 3072] layout (the same array read
  through three windows), and projects the attended values by the output weights.  The reference projects three
  times, re-lays each projection as [16, 2048, 64], and does the same softmax attention head by head with batched
  products.  Read at the ideal instance — rounding to bf16 the identity, every product and sum exact — both compute,
  at result entry (s, n), the sum over j of the heads' outputs at (s, j) times the output weights at (n, j)
  (`Proof/Spec.lean`), with the same order of operations inside every sum, so no finiteness is used.

  The three frames: each program runs to the end without a fault and leaves its argument arrays as launched.  For the
  kernel programs this is the chain of the host stretch and the three calls (`Proof/Frame.lean`, `Proof/Bits/Frame.lean`),
  each call's body run once on symbolic staging buffers; the attention call's three windows on one array hold a share
  of it each.  For the reference it is its run with the result dropped.
-/
import proofs.«108809_j59742995087482_2_alg».proof.Defs
import proofs.«108809_j59742995087482_2_alg».proof.Proof.Gen.Kernel
import proofs.«108809_j59742995087482_2_alg».proof.Proof.Gen.KernelIdeal
import proofs.«108809_j59742995087482_2_alg».proof.Proof.Gen.ReferenceIdeal
import proofs.«108809_j59742995087482_2_alg».proof.Proof.Gen.Pre_finite_inputs
import proofs.«108809_j59742995087482_2_alg».proof.Proof.Gen.ReferenceIdeal.Run
import proofs.«108809_j59742995087482_2_alg».proof.Proof.Gen.ReferenceIdeal.Read
import proofs.«108809_j59742995087482_2_alg».proof.Proof.Bits.Frame
import proofs.«108809_j59742995087482_2_alg».proof.Proof.Frame
import proofs.«108809_j59742995087482_2_alg».proof.Proof.KernelValue
import proofs.«108809_j59742995087482_2_alg».proof.Proof.AttnBlocks
import proofs.«108809_j59742995087482_2_alg».proof.Proof.AttnBody
import proofs.«108809_j59742995087482_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- What the attention call leaves, with the body's arithmetic supplied. -/
theorem attnFinal : Cert.KernelIdeal.KernelValue.AttnFinal :=
  fun V c => Cert.KernelIdeal.AttnBlocks.final1 V Cert.KernelIdeal.AttnValue.attn_pay_apply c

/-- Both programs end with the attention layer of the (agreeing) arguments in their result arrays. -/
theorem algebraic : Cert.algebraic_KernelIdeal_ReferenceIdeal := by
  intro m ρ m' ρ' _ hagree
  refine ⟨fun c i => Cert.Spec.out (Cert.Spec.arr2 (m ((c.tc : Thread Cert.KernelIdeal.nD Cert.KernelIdeal.τ).loc Cert.KernelIdeal.main_arg0)))
      (Cert.Spec.arr2 (m ((c.tc : Thread Cert.KernelIdeal.nD Cert.KernelIdeal.τ).loc Cert.KernelIdeal.main_arg1)))
      (Cert.Spec.arr2 (m ((c.tc : Thread Cert.KernelIdeal.nD Cert.KernelIdeal.τ).loc Cert.KernelIdeal.main_arg2)))
      (Cert.Spec.arr2 (m ((c.tc : Thread Cert.KernelIdeal.nD Cert.KernelIdeal.τ).loc Cert.KernelIdeal.main_arg3)))
      (Cert.Spec.arr2 (m ((c.tc : Thread Cert.KernelIdeal.nD Cert.KernelIdeal.τ).loc Cert.KernelIdeal.main_arg4))) (i 0) (i 1), ?_, ?_⟩
  · exact (θ_run Cert.KernelIdeal.defs _ _).mono
      (fun r h c => ⟨(h c).1.trans (Cert.KernelIdeal.KernelValue.result_eq m attnFinal c), (h c).2⟩)
      (Cert.KernelIdeal.Hand.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.RefSide.result_eq,
      (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
